-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x104 : Shape := ⟨2, ![8192, 104]⟩
abbrev S8192x2048 : Shape := ⟨2, ![8192, 2048]⟩
abbrev S2048x2048 : Shape := ⟨2, ![2048, 2048]⟩
abbrev S2048 : Shape := ⟨1, ![2048]⟩
abbrev S2048x104 : Shape := ⟨2, ![2048, 104]⟩
abbrev S104x2048 : Shape := ⟨2, ![104, 2048]⟩
abbrev S104 : Shape := ⟨1, ![104]⟩
abbrev S_ : Shape := ⟨0, ![]⟩

class Facts : Prop where
  bcast_S_S8192x104 : S_.BroadcastsInDim S8192x104 (![] : Fin 0 → Fin S8192x104.rank)
  reducesTo_S8192x104_S_d0_1 : S8192x104.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x104 : S_.BroadcastsInDim S2048x104 (![] : Fin 0 → Fin S2048x104.rank)
  reducesTo_S2048x104_S_d0_1 : S2048x104.ReducesTo [0, 1] S_
  bcast_S_S104x2048 : S_.BroadcastsInDim S104x2048 (![] : Fin 0 → Fin S104x2048.rank)
  reducesTo_S104x2048_S_d0_1 : S104x2048.ReducesTo [0, 1] S_
  bcast_S_S104 : S_.BroadcastsInDim S104 (![] : Fin 0 → Fin S104.rank)
  reducesTo_S104_S_d0 : S104.ReducesTo [0] S_

variable [Facts]

def fn_part2 {F : FTy → Type} [FloatOps F] (main_arg7 : FVec F S104 .f32) (main_v33 : IVec S_ 1) : IVec S_ 1 :=
  let main_v34 : FVec F S104 .f32 := Host.absf main_arg7
  let main_cst_12 : FVec F S_ .f32 := constant S_ .f32 0x7F800000#32
  let main_v35 : FVec F S104 .f32 := broadcastInDim S104 ![] bcast_S_S104 main_cst_12
  let main_v36 : IVec S104 1 := cmpf .olt main_v34 main_v35
  let main_c_13 : IVec S_ 1 := constantI S_ 1 1#1
  let main_v37 : IVec S_ 1 := (fun x v => Host.reduce IntOp.andi x v reducesTo_S104_S_d0 h_S_) main_v36 main_c_13
  let main_v38 : IVec S_ 1 := andi main_v33 main_v37
  main_v38

def fn_part1 {F : FTy → Type} [FloatOps F] (main_arg4 : FVec F S2048x104 .f32) (main_arg5 : FVec F S2048 .f32) (main_arg6 : FVec F S104x2048 .f32) (main_arg7 : FVec F S104 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x104 .f32 := Host.absf main_arg4
  let main_cst_6 : FVec F S_ .f32 := constant S_ .f32 0x7F800000#32
  let main_v20 : FVec F S2048x104 .f32 := broadcastInDim S2048x104 ![] bcast_S_S2048x104 main_cst_6
  let main_v21 : IVec S2048x104 1 := cmpf .olt main_v19 main_v20
  let main_c_7 : IVec S_ 1 := constantI S_ 1 1#1
  let main_v22 : IVec S_ 1 := (fun x v => Host.reduce IntOp.andi x v reducesTo_S2048x104_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S104x2048 .f32 := Host.absf main_arg6
  let main_cst_10 : FVec F S_ .f32 := constant S_ .f32 0x7F800000#32
  let main_v30 : FVec F S104x2048 .f32 := broadcastInDim S104x2048 ![] bcast_S_S104x2048 main_cst_10
  let main_v31 : IVec S104x2048 1 := cmpf .olt main_v29 main_v30
  let main_c_11 : IVec S_ 1 := constantI S_ 1 1#1
  let main_v32 : IVec S_ 1 := (fun x v => Host.reduce IntOp.andi x v reducesTo_S104x2048_S_d0_1 h_S_) main_v31 main_c_11
  let main_v33 : IVec S_ 1 := andi main_v28 main_v32
  fn_part2 (F := F) main_arg7 main_v33

def fn {F : FTy → Type} [FloatOps F] (main_arg0 : FVec F S8192x104 .f32) (main_arg1 : FVec F S8192x2048 .f32) (main_arg2 : FVec F S2048x2048 .f32) (main_arg3 : FVec F S2048 .f32) (main_arg4 : FVec F S2048x104 .f32) (main_arg5 : FVec F S2048 .f32) (main_arg6 : FVec F S104x2048 .f32) (main_arg7 : FVec F S104 .f32) : IVec S_ 1 :=
  let main_v0 : FVec F S8192x104 .f32 := Host.absf main_arg0
  let main_cst : FVec F S_ .f32 := constant S_ .f32 0x7F800000#32
  let main_v1 : FVec F S8192x104 .f32 := broadcastInDim S8192x104 ![] bcast_S_S8192x104 main_cst
  let main_v2 : IVec S8192x104 1 := cmpf .olt main_v0 main_v1
  let main_c : IVec S_ 1 := constantI S_ 1 1#1
  let main_v3 : IVec S_ 1 := (fun x v => Host.reduce IntOp.andi x v reducesTo_S8192x104_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S8192x104 : Shape := ⟨2, ![8192, 104]⟩
abbrev S8192x2048 : Shape := ⟨2, ![8192, 2048]⟩
abbrev S2048x2048 : Shape := ⟨2, ![2048, 2048]⟩
abbrev S2048 : Shape := ⟨1, ![2048]⟩
abbrev S2048x104 : Shape := ⟨2, ![2048, 104]⟩
abbrev S104x2048 : Shape := ⟨2, ![104, 2048]⟩
abbrev S104 : Shape := ⟨1, ![104]⟩
abbrev S1x2048 : Shape := ⟨2, ![1, 2048]⟩
abbrev S1x104 : Shape := ⟨2, ![1, 104]⟩
abbrev S512x104 : Shape := ⟨2, ![512, 104]⟩
abbrev S512x2048 : Shape := ⟨2, ![512, 2048]⟩
abbrev S512x13 : Shape := ⟨2, ![512, 13]⟩
abbrev S512 : Shape := ⟨1, ![512]⟩
abbrev S512x1 : Shape := ⟨2, ![512, 1]⟩
abbrev S512x9 : Shape := ⟨2, ![512, 9]⟩
abbrev S512x4 : Shape := ⟨2, ![512, 4]⟩

abbrev nBuf : Space → Nat
  | .hbm => 21
  | .vmem => 14
  | .smem => 0
  | _ => 0

abbrev bufTy : (tb : Table) → Fin (tcTables nBuf tb) → BufTy
  | .hbm, ⟨0, _⟩ => ⟨S8192x104, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x104, .f32⟩
  | .hbm, ⟨5, _⟩ => ⟨S2048, .f32⟩
  | .hbm, ⟨6, _⟩ => ⟨S104x2048, .f32⟩
  | .hbm, ⟨7, _⟩ => ⟨S104, .f32⟩
  | .hbm, ⟨8, _⟩ => ⟨S2048x2048, .f32⟩
  | .hbm, ⟨9, _⟩ => ⟨S2048x2048, .bf16⟩
  | .hbm, ⟨10, _⟩ => ⟨S104x2048, .f32⟩
  | .hbm, ⟨11, _⟩ => ⟨S104x2048, .bf16⟩
  | .hbm, ⟨12, _⟩ => ⟨S2048x104, .f32⟩
  | .hbm, ⟨13, _⟩ => ⟨S2048x104, .bf16⟩
  | .hbm, ⟨14, _⟩ => ⟨S1x2048, .f32⟩
  | .hbm, ⟨15, _⟩ => ⟨S1x2048, .f32⟩
  | .hbm, ⟨16, _⟩ => ⟨S1x104, .f32⟩
  | .hbm, ⟨17, _⟩ => ⟨S8192x104, .bf16⟩
  | .hbm, ⟨18, _⟩ => ⟨S8192x2048, .bf16⟩
  | .hbm, ⟨19, _⟩ => ⟨S8192x104, .f32⟩
  | .hbm, ⟨20, _⟩ => ⟨S8192x2048, .f32⟩
  | .local _ .vmem, ⟨0, _⟩ => ⟨S512x104, .bf16⟩
  | .local _ .vmem, ⟨1, _⟩ => ⟨S512x104, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S104x2048, .bf16⟩
  | .local _ .vmem, ⟨7, _⟩ => ⟨S1x2048, .f32⟩
  | .local _ .vmem, ⟨8, _⟩ => ⟨S2048x104, .bf16⟩
  | .local _ .vmem, ⟨9, _⟩ => ⟨S1x104, .f32⟩
  | .local _ .vmem, ⟨10, _⟩ => ⟨S512x104, .f32⟩
  | .local _ .vmem, ⟨11, _⟩ => ⟨S512x104, .f32⟩
  | .local _ .vmem, ⟨12, _⟩ => ⟨S512x2048, .f32⟩
  | .local _ .vmem, ⟨13, _⟩ => ⟨S512x2048, .f32⟩
  | _, _ => ⟨S8192x104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x104 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S104x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x104 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x104 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x104 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S2048x2048_S2048x2048_1_0 : S2048x2048.Transposes [1, 0] S2048x2048
  bitsLt_bf16_f32 : FTy.bits .bf16 < FTy.bits .f32
  transposes_S2048x104_S104x2048_1_0 : S2048x104.Transposes [1, 0] S104x2048
  transposes_S104x2048_S2048x104_1_0 : S104x2048.Transposes [1, 0] S2048x104
  shapeCasts_S2048_S1x2048 : S2048.ShapeCasts S1x2048
  shapeCasts_S104_S1x104 : S104.ShapeCasts S1x104
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512x104_S512x104_0_0 : ∀ a, (![0, 0] : Fin 2 → Nat) a + S512x104.size a ≤ S512x104.size a
  h_S512x104 : 0 < S512x104.numel
  shapeCasts_S512x104_S512x104 : S512x104.ShapeCasts S512x104
  inb_S104x2048_S104x2048_0_0 : ∀ a, (![0, 0] : Fin 2 → Nat) a + S104x2048.size a ≤ S104x2048.size a
  h_S104x2048 : 0 < S104x2048.numel
  shapeCasts_S104x2048_S104x2048 : S104x2048.ShapeCasts S104x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x104_S2048x104_0_0 : ∀ a, (![0, 0] : Fin 2 → Nat) a + S2048x104.size a ≤ S2048x104.size a
  h_S2048x104 : 0 < S2048x104.numel
  shapeCasts_S2048x104_S2048x104 : S2048x104.ShapeCasts S2048x104
  inb_S1x104_S1x104_0_0 : ∀ a, (![0, 0] : Fin 2 → Nat) a + S1x104.size a ≤ S1x104.size a
  h_S1x104 : 0 < S1x104.numel
  shapeCasts_S1x104_S1x104 : S1x104.ShapeCasts S1x104
  broadcasts_S1x104_S512x104 : S1x104.Broadcasts S512x104
  slices_S512x104_o0_0_S512x13 : S512x104.Slices ![0, 0] S512x13
  reduces_S512x13_S512 : S512x13.Reduces [1] S512
  shapeCasts_S512_S512x1 : S512.ShapeCasts S512x1
  broadcasts_S512x1_S512x13 : S512x1.Broadcasts S512x13
  slices_S512x104_o0_13_S512x13 : S512x104.Slices ![0, 13] S512x13
  slices_S512x104_o0_26_S512x13 : S512x104.Slices ![0, 26] S512x13
  slices_S512x104_o0_39_S512x9 : S512x104.Slices ![0, 39] S512x9
  reduces_S512x9_S512 : S512x9.Reduces [1] S512
  broadcasts_S512x1_S512x9 : S512x1.Broadcasts S512x9
  slices_S512x104_o0_48_S512x4 : S512x104.Slices ![0, 48] S512x4
  reduces_S512x4_S512 : S512x4.Reduces [1] S512
  broadcasts_S512x1_S512x4 : S512x1.Broadcasts S512x4
  slices_S512x104_o0_52_S512x13 : S512x104.Slices ![0, 52] S512x13
  slices_S512x104_o0_65_S512x13 : S512x104.Slices ![0, 65] S512x13
  slices_S512x104_o0_78_S512x13 : S512x104.Slices ![0, 78] S512x13
  slices_S512x104_o0_91_S512x9 : S512x104.Slices ![0, 91] S512x9
  slices_S512x104_o0_100_S512x4 : S512x104.Slices ![0, 100] S512x4
  concatenates_S512x13_S512x13_S512x13_S512x9_S512x4_S512x13_S512x13_S512x13_S512x9_S512x4_S512x104_d1 : Shape.Concatenates [S512x13, S512x13, S512x13, S512x9, S512x4, S512x13, S512x13, S512x13, S512x9, S512x4] S512x104 1
  dot_S512x2048_S2048x2048_S512x2048_1_0_0_1_n_n_wf : DotDims.WF S512x2048 S2048x2048 S512x2048 [1] [0] [0] [1] [] []
  dot_S512x104_S104x2048_S512x2048_1_0_0_1_n_n_wf : DotDims.WF S512x104 S104x2048 S512x2048 [1] [0] [0] [1] [] []
  dot_S512x2048_S2048x104_S512x104_1_0_0_1_n_n_wf : DotDims.WF S512x2048 S2048x104 S512x104 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x104.size a ≤ S8192x104.size a
  hwx0_0 : ∀ i : grid0.Coords, EltTy.bits .bf16 = 32 ∨ (Rect.block (s := S8192x104) S512x104.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S104x2048.size a ≤ S104x2048.size a
  hwx0_4 : ∀ i : grid0.Coords, EltTy.bits .bf16 = 32 ∨ (Rect.block (s := S104x2048) S104x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x104.size a ≤ S2048x104.size a
  hwx0_6 : ∀ i : grid0.Coords, EltTy.bits .bf16 = 32 ∨ (Rect.block (s := S2048x104) S2048x104.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x104.size a ≤ S1x104.size a
  hwx0_7 : ∀ i : grid0.Coords, EltTy.bits .f32 = 32 ∨ (Rect.block (s := S1x104) S1x104.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x104.size a ≤ S8192x104.size a
  hwx0_8 : ∀ i : grid0.Coords, EltTy.bits .f32 = 32 ∨ (Rect.block (s := S8192x104) S512x104.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S8192x2048.size a
  hwx0_9 : ∀ i : grid0.Coords, EltTy.bits .f32 = 32 ∨ (Rect.block (s := S8192x2048) S512x2048.size (cc0_transform_9 i) (hinb0_9 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x104_S104x2048_S512x2048_1_0_0_1_n_n : DotDims S512x104 S104x2048 S512x2048 where
  lhsContracting := [1]
  rhsContracting := [0]
  lhsNonContracting := [0]
  rhsNonContracting := [1]
  lhsBatch := []
  rhsBatch := []
  wf := dot_S512x104_S104x2048_S512x2048_1_0_0_1_n_n_wf
def dot_S512x2048_S2048x104_S512x104_1_0_0_1_n_n : DotDims S512x2048 S2048x104 S512x104 where
  lhsContracting := [1]
  rhsContracting := [0]
  lhsNonContracting := [0]
  rhsNonContracting := [1]
  lhsBatch := []
  rhsBatch := []
  wf := dot_S512x2048_S2048x104_S512x104_1_0_0_1_n_n_wf

abbrev win0_0 : Pipeline.Window sig grid0 :=
  Pipeline.Window.ofSpec (Memref.whole main_v9) S512x104.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S104x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x104.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x104.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S512x104.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S512x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x104 : Shape := ⟨2, ![8192, 104]⟩
abbrev S8192x2048 : Shape := ⟨2, ![8192, 2048]⟩
abbrev S2048x2048 : Shape := ⟨2, ![2048, 2048]⟩
abbrev S2048 : Shape := ⟨1, ![2048]⟩
abbrev S2048x104 : Shape := ⟨2, ![2048, 104]⟩
abbrev S104x2048 : Shape := ⟨2, ![104, 2048]⟩
abbrev S104 : Shape := ⟨1, ![104]⟩
abbrev S1x2048 : Shape := ⟨2, ![1, 2048]⟩
abbrev S_ : Shape := ⟨0, ![]⟩
abbrev S1x104 : Shape := ⟨2, ![1, 104]⟩
abbrev S8192x13 : Shape := ⟨2, ![8192, 13]⟩
abbrev S8192 : Shape := ⟨1, ![8192]⟩
abbrev S8192x1 : Shape := ⟨2, ![8192, 1]⟩
abbrev S8192x9 : Shape := ⟨2, ![8192, 9]⟩
abbrev S8192x4 : Shape := ⟨2, ![8192, 4]⟩

abbrev nBuf : Space → Nat
  | .hbm => 193
  | .vmem => 0
  | .smem => 0
  | _ => 0

abbrev hbmTy0_0 (i : Nat) : BufTy := match i % 128 with
  | 0 => ⟨S8192x104, .f32⟩
  | 1 => ⟨S8192x2048, .f32⟩
  | 2 => ⟨S2048x2048, .f32⟩
  | 3 => ⟨S2048, .f32⟩
  | 4 => ⟨S2048x104, .f32⟩
  | 5 => ⟨S2048, .f32⟩
  | 6 => ⟨S104x2048, .f32⟩
  | 7 => ⟨S104, .f32⟩
  | 8 => ⟨S2048x2048, .f32⟩
  | 9 => ⟨S8192x2048, .f32⟩
  | 10 => ⟨S1x2048, .f32⟩
  | 11 => ⟨S8192x2048, .f32⟩
  | 12 => ⟨S8192x2048, .f32⟩
  | 13 => ⟨S104x2048, .f32⟩
  | 14 => ⟨S8192x2048, .f32⟩
  | 15 => ⟨S8192x2048, .f32⟩
  | 16 => ⟨S1x2048, .f32⟩
  | 17 => ⟨S8192x2048, .f32⟩
  | 18 => ⟨S8192x2048, .f32⟩
  | 19 => ⟨S8192x2048, .f32⟩
  | 20 => ⟨S8192x2048, .f32⟩
  | 21 => ⟨S_, .f32⟩
  | 22 => ⟨S8192x2048, .f32⟩
  | 23 => ⟨S8192x2048, .f32⟩
  | 24 => ⟨S_, .f32⟩
  | 25 => ⟨S8192x2048, .f32⟩
  | 26 => ⟨S8192x2048, .f32⟩
  | 27 => ⟨S2048x104, .f32⟩
  | 28 => ⟨S8192x104, .f32⟩
  | 29 => ⟨S1x104, .f32⟩
  | 30 => ⟨S8192x104, .f32⟩
  | 31 => ⟨S8192x104, .f32⟩
  | 32 => ⟨S8192x13, .f32⟩
  | 33 => ⟨S_, .f32⟩
  | 34 => ⟨S8192, .f32⟩
  | 35 => ⟨S_, .f32⟩
  | 36 => ⟨S8192, .f32⟩
  | 37 => ⟨S8192, .f32⟩
  | 38 => ⟨S8192x1, .f32⟩
  | 39 => ⟨S8192x13, .f32⟩
  | 40 => ⟨S8192x13, .f32⟩
  | 41 => ⟨S8192x13, .f32⟩
  | 42 => ⟨S_, .f32⟩
  | 43 => ⟨S8192, .f32⟩
  | 44 => ⟨S8192x1, .f32⟩
  | 45 => ⟨S8192x1, .f32⟩
  | 46 => ⟨S8192x13, .f32⟩
  | 47 => ⟨S8192x13, .f32⟩
  | 48 => ⟨S8192x13, .f32⟩
  | 49 => ⟨S_, .f32⟩
  | 50 => ⟨S8192, .f32⟩
  | 51 => ⟨S_, .f32⟩
  | 52 => ⟨S8192, .f32⟩
  | 53 => ⟨S8192, .f32⟩
  | 54 => ⟨S8192x1, .f32⟩
  | 55 => ⟨S8192x13, .f32⟩
  | 56 => ⟨S8192x13, .f32⟩
  | 57 => ⟨S8192x13, .f32⟩
  | 58 => ⟨S_, .f32⟩
  | 59 => ⟨S8192, .f32⟩
  | 60 => ⟨S8192x1, .f32⟩
  | 61 => ⟨S8192x1, .f32⟩
  | 62 => ⟨S8192x13, .f32⟩
  | 63 => ⟨S8192x13, .f32⟩
  | 64 => ⟨S8192x13, .f32⟩
  | 65 => ⟨S_, .f32⟩
  | 66 => ⟨S8192, .f32⟩
  | 67 => ⟨S_, .f32⟩
  | 68 => ⟨S8192, .f32⟩
  | 69 => ⟨S8192, .f32⟩
  | 70 => ⟨S8192x1, .f32⟩
  | 71 => ⟨S8192x13, .f32⟩
  | 72 => ⟨S8192x13, .f32⟩
  | 73 => ⟨S8192x13, .f32⟩
  | 74 => ⟨S_, .f32⟩
  | 75 => ⟨S8192, .f32⟩
  | 76 => ⟨S8192x1, .f32⟩
  | 77 => ⟨S8192x1, .f32⟩
  | 78 => ⟨S8192x13, .f32⟩
  | 79 => ⟨S8192x13, .f32⟩
  | 80 => ⟨S8192x9, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1, .f32⟩
  | 87 => ⟨S8192x9, .f32⟩
  | 88 => ⟨S8192x9, .f32⟩
  | 89 => ⟨S8192x9, .f32⟩
  | 90 => ⟨S_, .f32⟩
  | 91 => ⟨S8192, .f32⟩
  | 92 => ⟨S8192x1, .f32⟩
  | 93 => ⟨S8192x1, .f32⟩
  | 94 => ⟨S8192x9, .f32⟩
  | 95 => ⟨S8192x9, .f32⟩
  | 96 => ⟨S8192x4, .f32⟩
  | 97 => ⟨S_, .f32⟩
  | 98 => ⟨S8192, .f32⟩
  | 99 => ⟨S_, .f32⟩
  | 100 => ⟨S8192, .f32⟩
  | 101 => ⟨S8192, .f32⟩
  | 102 => ⟨S8192x1, .f32⟩
  | 103 => ⟨S8192x4, .f32⟩
  | 104 => ⟨S8192x4, .f32⟩
  | 105 => ⟨S8192x4, .f32⟩
  | 106 => ⟨S_, .f32⟩
  | 107 => ⟨S8192, .f32⟩
  | 108 => ⟨S8192x1, .f32⟩
  | 109 => ⟨S8192x1, .f32⟩
  | 110 => ⟨S8192x4, .f32⟩
  | 111 => ⟨S8192x4, .f32⟩
  | 112 => ⟨S8192x13, .f32⟩
  | 113 => ⟨S_, .f32⟩
  | 114 => ⟨S8192, .f32⟩
  | 115 => ⟨S_, .f32⟩
  | 116 => ⟨S8192, .f32⟩
  | 117 => ⟨S8192, .f32⟩
  | 118 => ⟨S8192x1, .f32⟩
  | 119 => ⟨S8192x13, .f32⟩
  | 120 => ⟨S8192x13, .f32⟩
  | 121 => ⟨S8192x13, .f32⟩
  | 122 => ⟨S_, .f32⟩
  | 123 => ⟨S8192, .f32⟩
  | 124 => ⟨S8192x1, .f32⟩
  | 125 => ⟨S8192x1, .f32⟩
  | 126 => ⟨S8192x13, .f32⟩
  | 127 => ⟨S8192x13, .f32⟩
  | _ => ⟨S8192x104, .f32⟩

abbrev hbmTy0_1 (i : Nat) : BufTy := match i % 128 with
  | 0 => ⟨S8192x13, .f32⟩
  | 1 => ⟨S_, .f32⟩
  | 2 => ⟨S8192, .f32⟩
  | 3 => ⟨S_, .f32⟩
  | 4 => ⟨S8192, .f32⟩
  | 5 => ⟨S8192, .f32⟩
  | 6 => ⟨S8192x1, .f32⟩
  | 7 => ⟨S8192x13, .f32⟩
  | 8 => ⟨S8192x13, .f32⟩
  | 9 => ⟨S8192x13, .f32⟩
  | 10 => ⟨S_, .f32⟩
  | 11 => ⟨S8192, .f32⟩
  | 12 => ⟨S8192x1, .f32⟩
  | 13 => ⟨S8192x1, .f32⟩
  | 14 => ⟨S8192x13, .f32⟩
  | 15 => ⟨S8192x13, .f32⟩
  | 16 => ⟨S8192x13, .f32⟩
  | 17 => ⟨S_, .f32⟩
  | 18 => ⟨S8192, .f32⟩
  | 19 => ⟨S_, .f32⟩
  | 20 => ⟨S8192, .f32⟩
  | 21 => ⟨S8192, .f32⟩
  | 22 => ⟨S8192x1, .f32⟩
  | 23 => ⟨S8192x13, .f32⟩
  | 24 => ⟨S8192x13, .f32⟩
  | 25 => ⟨S8192x13, .f32⟩
  | 26 => ⟨S_, .f32⟩
  | 27 => ⟨S8192, .f32⟩
  | 28 => ⟨S8192x1, .f32⟩
  | 29 => ⟨S8192x1, .f32⟩
  | 30 => ⟨S8192x13, .f32⟩
  | 31 => ⟨S8192x13, .f32⟩
  | 32 => ⟨S8192x9, .f32⟩
  | 33 => ⟨S_, .f32⟩
  | 34 => ⟨S8192, .f32⟩
  | 35 => ⟨S_, .f32⟩
  | 36 => ⟨S8192, .f32⟩
  | 37 => ⟨S8192, .f32⟩
  | 38 => ⟨S8192x1, .f32⟩
  | 39 => ⟨S8192x9, .f32⟩
  | 40 => ⟨S8192x9, .f32⟩
  | 41 => ⟨S8192x9, .f32⟩
  | 42 => ⟨S_, .f32⟩
  | 43 => ⟨S8192, .f32⟩
  | 44 => ⟨S8192x1, .f32⟩
  | 45 => ⟨S8192x1, .f32⟩
  | 46 => ⟨S8192x9, .f32⟩
  | 47 => ⟨S8192x9, .f32⟩
  | 48 => ⟨S8192x4, .f32⟩
  | 49 => ⟨S_, .f32⟩
  | 50 => ⟨S8192, .f32⟩
  | 51 => ⟨S_, .f32⟩
  | 52 => ⟨S8192, .f32⟩
  | 53 => ⟨S8192, .f32⟩
  | 54 => ⟨S8192x1, .f32⟩
  | 55 => ⟨S8192x4, .f32⟩
  | 56 => ⟨S8192x4, .f32⟩
  | 57 => ⟨S8192x4, .f32⟩
  | 58 => ⟨S_, .f32⟩
  | 59 => ⟨S8192, .f32⟩
  | 60 => ⟨S8192x1, .f32⟩
  | 61 => ⟨S8192x1, .f32⟩
  | 62 => ⟨S8192x4, .f32⟩
  | 63 => ⟨S8192x4, .f32⟩
  | 64 => ⟨S8192x104, .f32⟩
  | _ => ⟨S8192x104, .f32⟩

abbrev hbmTy (i : Nat) : BufTy := match i / 128 with
  | 0 => hbmTy0_0 i
  | 1 => hbmTy0_1 i
  | _ => ⟨S8192x104, .f32⟩

abbrev bufTy : (tb : Table) → Fin (tcTables nBuf tb) → BufTy
  | .hbm, ⟨i, _⟩ => hbmTy i
  | _, _ => ⟨S8192x104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v23 : Ref sig .tc := ⟨.hbm, 47, rfl⟩
abbrev main_v24 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v25 : Ref sig .tc := ⟨.hbm, 63, rfl⟩
abbrev main_v26 : Ref sig .tc := ⟨.hbm, 64, rfl⟩
abbrev main_call2_cst : Ref sig .tc := ⟨.hbm, 65, rfl⟩
abbrev main_call2_v0 : Ref sig .tc := ⟨.hbm, 66, rfl⟩
abbrev main_call2_cst_0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_cst_1 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_v27 : Ref sig .tc := ⟨.hbm, 79, rfl⟩
abbrev main_v28 : Ref sig .tc := ⟨.hbm, 80, rfl⟩
abbrev main_call3_cst : Ref sig .tc := ⟨.hbm, 81, rfl⟩
abbrev main_call3_v0 : Ref sig .tc := ⟨.hbm, 82, rfl⟩
abbrev main_call3_cst_0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_cst_1 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_v29 : Ref sig .tc := ⟨.hbm, 95, rfl⟩
abbrev main_v30 : Ref sig .tc := ⟨.hbm, 96, rfl⟩
abbrev main_call4_cst : Ref sig .tc := ⟨.hbm, 97, rfl⟩
abbrev main_call4_v0 : Ref sig .tc := ⟨.hbm, 98, rfl⟩
abbrev main_call4_cst_0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_v6 : Ref sig .tc := ⟨.hbm, 105, rfl⟩
abbrev main_call4_cst_1 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_v31 : Ref sig .tc := ⟨.hbm, 111, rfl⟩
abbrev main_v32 : Ref sig .tc := ⟨.hbm, 112, rfl⟩
abbrev main_call5_cst : Ref sig .tc := ⟨.hbm, 113, rfl⟩
abbrev main_call5_v0 : Ref sig .tc := ⟨.hbm, 114, rfl⟩
abbrev main_call5_cst_0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_v6 : Ref sig .tc := ⟨.hbm, 121, rfl⟩
abbrev main_call5_cst_1 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_v33 : Ref sig .tc := ⟨.hbm, 127, rfl⟩
abbrev main_v34 : Ref sig .tc := ⟨.hbm, 128, rfl⟩
abbrev main_call6_cst : Ref sig .tc := ⟨.hbm, 129, rfl⟩
abbrev main_call6_v0 : Ref sig .tc := ⟨.hbm, 130, rfl⟩
abbrev main_call6_cst_0 : Ref sig .tc := ⟨.hbm, 131, rfl⟩
abbrev main_call6_v1 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_v5 : Ref sig .tc := ⟨.hbm, 136, rfl⟩
abbrev main_call6_v6 : Ref sig .tc := ⟨.hbm, 137, rfl⟩
abbrev main_call6_cst_1 : Ref sig .tc := ⟨.hbm, 138, rfl⟩
abbrev main_call6_v7 : Ref sig .tc := ⟨.hbm, 139, rfl⟩
abbrev main_call6_v8 : Ref sig .tc := ⟨.hbm, 140, rfl⟩
abbrev main_call6_v9 : Ref sig .tc := ⟨.hbm, 141, rfl⟩
abbrev main_call6_v10 : Ref sig .tc := ⟨.hbm, 142, rfl⟩
abbrev main_v35 : Ref sig .tc := ⟨.hbm, 143, rfl⟩
abbrev main_v36 : Ref sig .tc := ⟨.hbm, 144, rfl⟩
abbrev main_call7_cst : Ref sig .tc := ⟨.hbm, 145, rfl⟩
abbrev main_call7_v0 : Ref sig .tc := ⟨.hbm, 146, rfl⟩
abbrev main_call7_cst_0 : Ref sig .tc := ⟨.hbm, 147, rfl⟩
abbrev main_call7_v1 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_v5 : Ref sig .tc := ⟨.hbm, 152, rfl⟩
abbrev main_call7_v6 : Ref sig .tc := ⟨.hbm, 153, rfl⟩
abbrev main_call7_cst_1 : Ref sig .tc := ⟨.hbm, 154, rfl⟩
abbrev main_call7_v7 : Ref sig .tc := ⟨.hbm, 155, rfl⟩
abbrev main_call7_v8 : Ref sig .tc := ⟨.hbm, 156, rfl⟩
abbrev main_call7_v9 : Ref sig .tc := ⟨.hbm, 157, rfl⟩
abbrev main_call7_v10 : Ref sig .tc := ⟨.hbm, 158, rfl⟩
abbrev main_v37 : Ref sig .tc := ⟨.hbm, 159, rfl⟩
abbrev main_v38 : Ref sig .tc := ⟨.hbm, 160, rfl⟩
abbrev main_call8_cst : Ref sig .tc := ⟨.hbm, 161, rfl⟩
abbrev main_call8_v0 : Ref sig .tc := ⟨.hbm, 162, rfl⟩
abbrev main_call8_cst_0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_call8_v5 : Ref sig .tc := ⟨.hbm, 168, rfl⟩
abbrev main_call8_v6 : Ref sig .tc := ⟨.hbm, 169, rfl⟩
abbrev main_call8_cst_1 : Ref sig .tc := ⟨.hbm, 170, rfl⟩
abbrev main_call8_v7 : Ref sig .tc := ⟨.hbm, 171, rfl⟩
abbrev main_call8_v8 : Ref sig .tc := ⟨.hbm, 172, rfl⟩
abbrev main_call8_v9 : Ref sig .tc := ⟨.hbm, 173, rfl⟩
abbrev main_call8_v10 : Ref sig .tc := ⟨.hbm, 174, rfl⟩
abbrev main_v39 : Ref sig .tc := ⟨.hbm, 175, rfl⟩
abbrev main_v40 : Ref sig .tc := ⟨.hbm, 176, rfl⟩
abbrev main_call9_cst : Ref sig .tc := ⟨.hbm, 177, rfl⟩
abbrev main_call9_v0 : Ref sig .tc := ⟨.hbm, 178, rfl⟩
abbrev main_call9_cst_0 : Ref sig .tc := ⟨.hbm, 179, rfl⟩
abbrev main_call9_v1 : Ref sig .tc := ⟨.hbm, 180, rfl⟩
abbrev main_call9_v2 : Ref sig .tc := ⟨.hbm, 181, rfl⟩
abbrev main_call9_v3 : Ref sig .tc := ⟨.hbm, 182, rfl⟩
abbrev main_call9_v4 : Ref sig .tc := ⟨.hbm, 183, rfl⟩
abbrev main_call9_v5 : Ref sig .tc := ⟨.hbm, 184, rfl⟩
abbrev main_call9_v6 : Ref sig .tc := ⟨.hbm, 185, rfl⟩
abbrev main_call9_cst_1 : Ref sig .tc := ⟨.hbm, 186, rfl⟩
abbrev main_call9_v7 : Ref sig .tc := ⟨.hbm, 187, rfl⟩
abbrev main_call9_v8 : Ref sig .tc := ⟨.hbm, 188, rfl⟩
abbrev main_call9_v9 : Ref sig .tc := ⟨.hbm, 189, rfl⟩
abbrev main_call9_v10 : Ref sig .tc := ⟨.hbm, 190, rfl⟩
abbrev main_v41 : Ref sig .tc := ⟨.hbm, 191, rfl⟩
abbrev main_v42 : Ref sig .tc := ⟨.hbm, 192, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x104_S104x2048_1_0 : S2048x104.Transposes [1, 0] S104x2048
  bcast_S_S8192x2048 : S_.BroadcastsInDim S8192x2048 (![] : Fin 0 → Fin S8192x2048.rank)
  transposes_S104x2048_S2048x104_1_0 : S104x2048.Transposes [1, 0] S2048x104
  bcast_S104_S1x104_1 : S104.BroadcastsInDim S1x104 (![1] : Fin 1 → Fin S1x104.rank)
  bcast_S1x104_S8192x104_0_1 : S1x104.BroadcastsInDim S8192x104 (![0, 1] : Fin 2 → Fin S8192x104.rank)
  slices_S8192x104_S8192x13_0_0 : S8192x104.Slices ![0, 0] S8192x13
  reducesTo_S8192x13_S8192_d1 : S8192x13.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x13_0_1 : S8192x1.BroadcastsInDim S8192x13 (![0, 1] : Fin 2 → Fin S8192x13.rank)
  slices_S8192x104_S8192x13_0_13 : S8192x104.Slices ![0, 13] S8192x13
  slices_S8192x104_S8192x13_0_26 : S8192x104.Slices ![0, 26] S8192x13
  slices_S8192x104_S8192x9_0_39 : S8192x104.Slices ![0, 39] S8192x9
  reducesTo_S8192x9_S8192_d1 : S8192x9.ReducesTo [1] S8192
  bcast_S8192x1_S8192x9_0_1 : S8192x1.BroadcastsInDim S8192x9 (![0, 1] : Fin 2 → Fin S8192x9.rank)
  slices_S8192x104_S8192x4_0_48 : S8192x104.Slices ![0, 48] S8192x4
  reducesTo_S8192x4_S8192_d1 : S8192x4.ReducesTo [1] S8192
  bcast_S8192x1_S8192x4_0_1 : S8192x1.BroadcastsInDim S8192x4 (![0, 1] : Fin 2 → Fin S8192x4.rank)
  slices_S8192x104_S8192x13_0_52 : S8192x104.Slices ![0, 52] S8192x13
  slices_S8192x104_S8192x13_0_65 : S8192x104.Slices ![0, 65] S8192x13
  slices_S8192x104_S8192x13_0_78 : S8192x104.Slices ![0, 78] S8192x13
  slices_S8192x104_S8192x9_0_91 : S8192x104.Slices ![0, 91] S8192x9
  slices_S8192x104_S8192x4_0_100 : S8192x104.Slices ![0, 100] S8192x4
  concatenates_S8192x13_S8192x13_S8192x13_S8192x9_S8192x4_S8192x13_S8192x13_S8192x13_S8192x9_S8192x4_S8192x104_d1 : Shape.Concatenates [S8192x13, S8192x13, S8192x13, S8192x9, S8192x4, S8192x13, S8192x13, S8192x13, S8192x9, S8192x4] S8192x104 1
  dot_S8192x2048_S2048x2048_S8192x2048_1_0_0_1_n_n_wf : DotDims.WF S8192x2048 S2048x2048 S8192x2048 [1] [0] [0] [1] [] []
  dot_S8192x104_S104x2048_S8192x2048_1_0_0_1_n_n_wf : DotDims.WF S8192x104 S104x2048 S8192x2048 [1] [0] [0] [1] [] []
  dot_S8192x2048_S2048x104_S8192x104_1_0_0_1_n_n_wf : DotDims.WF S8192x2048 S2048x104 S8192x104 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x104_S104x2048_S8192x2048_1_0_0_1_n_n : DotDims S8192x104 S104x2048 S8192x2048 where
  lhsContracting := [1]
  rhsContracting := [0]
  lhsNonContracting := [0]
  rhsNonContracting := [1]
  lhsBatch := []
  rhsBatch := []
  wf := dot_S8192x104_S104x2048_S8192x2048_1_0_0_1_n_n_wf
def dot_S8192x2048_S2048x104_S8192x104_1_0_0_1_n_n : DotDims S8192x2048 S2048x104 S8192x104 where
  lhsContracting := [1]
  rhsContracting := [0]
  lhsNonContracting := [0]
  rhsNonContracting := [1]
  lhsBatch := []
  rhsBatch := []
  wf := dot_S8192x2048_S2048x104_S8192x104_1_0_0_1_n_n_wf

class Facts : Prop extends Facts₀ where

variable [Facts]
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.Spec.lean ====
/-
  The cell as mathematics, on the extended reals.

  From a batch of 8192 rows, a hidden state of width 2048 and an input line of width 104, the cell forms
    h[b, j]    = logistic( Σₖ hidden[b, k] · U[j, k]  +  u[j]  +  Σ_d line[b, d] · W[j, d]  +  w[j] ),
    pred[b, d] = Σₖ h[b, k] · V[d, k]  +  v[d],
  and then takes the logarithm of a softmax separately over each of ten runs of consecutive columns of `pred`
  (widths 13, 13, 13, 9, 4, 13, 13, 13, 9, 4, which fill the 104 columns): inside a run that starts at column `a` and
  has `n` columns, with `M` the largest entry of the row in the run,
    out[b, c] = (pred[b, c] − M) − log Σ_{k < n} exp(pred[b, a + k] − M).
  The sums are written in the order the terms are added (the first product sum, its bias, the second product sum, its
  bias); no law that could fail at an infinity is used anywhere, so every statement holds for all extended reals.

  A row is continued by zero beyond its last column (`rowN`) so that a run is addressed by plain natural-number
  arithmetic `a + k`.
-/
import Idealize.ShloMosaic.Lib.ValueIdx
import Idealize.ShloMosaic.PureOps.Ideal.Laws

noncomputable section

namespace Cert.RnnSpec

open Idealize.ShloMosaic Idealize.ShloMosaic.ValueIdx

/-- A matrix of extended reals with `a` rows and `b` columns, and a vector of length `a`. -/
abbrev Mat (a b : ℕ) : Type := (⟨2, ![a, b]⟩ : Shape).Idx → EReal
abbrev Vct (a : ℕ) : Type := (⟨1, ![a]⟩ : Shape).Idx → EReal

/-- Entry `(b, j)` of the new hidden state, for any number of rows `R`: the logistic function of the two product sums
    and the two biases, added in this order. -/
def hidAt {R : ℕ} (line : Mat R 104) (hidden : Mat R 2048) (Uw : Mat 2048 2048) (Ub : Vct 2048) (Ww : Mat 2048 104)
    (Wb : Vct 2048) (b : Fin R) (j : Fin 2048) : EReal :=
  Ideal.logistic ((((∑ k : Fin 2048, hidden (ix2 b k) * Uw (ix2 j k)) + Ub (ix1 j))
    + ∑ d : Fin 104, line (ix2 b d) * Ww (ix2 j d)) + Wb (ix1 j))

/-- Entry `d` of the prediction row made from a hidden row `h`. -/
def predAt (h : Fin 2048 → EReal) (Vw : Mat 104 2048) (Vb : Vct 104) (d : Fin 104) : EReal :=
  (∑ k : Fin 2048, h k * Vw (ix2 d k)) + Vb (ix1 d)

/-- A row of 104 numbers, continued by zero. -/
def rowN (x : Fin 104 → EReal) (c : ℕ) : EReal := if h : c < 104 then x ⟨c, h⟩ else 0

theorem rowN_of_lt (x : Fin 104 → EReal) (c : ℕ) (h : c < 104) : rowN x c = x ⟨c, h⟩ := dif_pos h

/-- The largest of the `n` entries from column `a` on (the maximum of none is `⊥`). -/
def segMax (x : ℕ → EReal) (a n : ℕ) : EReal := (Finset.univ : Finset (Fin n)).fold max ⊥ fun k => x (a + k.val)

/-- The logarithm of the softmax over the run of `n` columns from `a` on, read at column `c`. -/
def segLse (x : ℕ → EReal) (a n c : ℕ) : EReal :=
  (x c - segMax x a n) - Ideal.log (∑ k : Fin n, Ideal.exp (x (a + k.val) - segMax x a n))

/-- The ten runs, by the column's position. -/
def lsm (x : ℕ → EReal) (c : ℕ) : EReal :=
  if c < 13 then segLse x 0 13 c else if c < 26 then segLse x 13 13 c else if c < 39 then segLse x 26 13 c
  else if c < 48 then segLse x 39 9 c else if c < 52 then segLse x 48 4 c else if c < 65 then segLse x 52 13 c
  else if c < 78 then segLse x 65 13 c else if c < 91 then segLse x 78 13 c else if c < 100 then segLse x 91 9 c
  else segLse x 100 4 c

/-- Inside a run the ten-way choice picks that run. -/
theorem lsm_seg0 (x : ℕ → EReal) (q : ℕ) (h : q < 13) : lsm x (0 + q) = segLse x 0 13 (0 + q) := by
  unfold lsm; rw [if_pos (by omega)]
theorem lsm_seg1 (x : ℕ → EReal) (q : ℕ) (h : q < 13) : lsm x (13 + q) = segLse x 13 13 (13 + q) := by
  unfold lsm; rw [if_neg (by omega), if_pos (by omega)]
theorem lsm_seg2 (x : ℕ → EReal) (q : ℕ) (h : q < 13) : lsm x (26 + q) = segLse x 26 13 (26 + q) := by
  unfold lsm; rw [if_neg (by omega), if_neg (by omega), if_pos (by omega)]
theorem lsm_seg3 (x : ℕ → EReal) (q : ℕ) (h : q < 9) : lsm x (39 + q) = segLse x 39 9 (39 + q) := by
  unfold lsm; rw [if_neg (by omega), if_neg (by omega), if_neg (by omega), if_pos (by omega)]
theorem lsm_seg4 (x : ℕ → EReal) (q : ℕ) (h : q < 4) : lsm x (48 + q) = segLse x 48 4 (48 + q) := by
  unfold lsm; rw [if_neg (by omega), if_neg (by omega), if_neg (by omega), if_neg (by omega), if_pos (by omega)]
theorem lsm_seg5 (x : ℕ → EReal) (q : ℕ) (h : q < 13) : lsm x (52 + q) = segLse x 52 13 (52 + q) := by
  unfold lsm; rw [if_neg (by omega), if_neg (by omega), if_neg (by omega), if_neg (by omega), if_neg (by omega),
    if_pos (by omega)]
theorem lsm_seg6 (x : ℕ → EReal) (q : ℕ) (h : q < 13) : lsm x (65 + q) = segLse x 65 13 (65 + q) := by
  unfold lsm; rw [if_neg (by omega), if_neg (by omega), if_neg (by omega), if_neg (by omega), if_neg (by omega),
    if_neg (by omega), if_pos (by omega)]
theorem lsm_seg7 (x : ℕ → EReal) (q : ℕ) (h : q < 13) : lsm x (78 + q) = segLse x 78 13 (78 + q) := by
  unfold lsm; rw [if_neg (by omega), if_neg (by omega), if_neg (by omega), if_neg (by omega), if_neg (by omega),
    if_neg (by omega), if_neg (by omega), if_pos (by omega)]
theorem lsm_seg8 (x : ℕ → EReal) (q : ℕ) (h : q < 9) : lsm x (91 + q) = segLse x 91 9 (91 + q) := by
  unfold lsm; rw [if_neg (by omega), if_neg (by omega), if_neg (by omega), if_neg (by omega), if_neg (by omega),
    if_neg (by omega), if_neg (by omega), if_neg (by omega), if_pos (by omega)]
theorem lsm_seg9 (x : ℕ → EReal) (q : ℕ) (h : q < 4) : lsm x (100 + q) = segLse x 100 4 (100 + q) := by
  unfold lsm; rw [if_neg (by omega), if_neg (by omega), if_neg (by omega), if_neg (by omega), if_neg (by omega),
    if_neg (by omega), if_neg (by omega), if_neg (by omega), if_neg (by omega)]

/-- The two results as whole arrays of the eight arguments: the hidden state, and the segmented log-softmax of the
    prediction made from it. -/
def hidArr (line : Mat 8192 104) (hidden : Mat 8192 2048) (Uw : Mat 2048 2048) (Ub : Vct 2048) (Ww : Mat 2048 104)
    (Wb : Vct 2048) : Mat 8192 2048 :=
  fun i => hidAt line hidden Uw Ub Ww Wb (i 0) (i 1)

def outArr (line : Mat 8192 104) (hidden : Mat 8192 2048) (Uw : Mat 2048 2048) (Ub : Vct 2048) (Ww : Mat 2048 104)
    (Wb : Vct 2048) (Vw : Mat 104 2048) (Vb : Vct 104) : Mat 8192 104 :=
  fun i => lsm (rowN (predAt (fun k => hidAt line hidden Uw Ub Ww Wb (i 0) k) Vw Vb)) (i 1).val

/-- The bit pattern of minus infinity is `⊥`, and that of `1.0` is `1`. -/
theorem ofBits_neg_inf : Ideal.ofBits .f32 0xFF800000#32 = ⊥ := by simp [Ideal.ofBits, Ideal.ieee]
theorem ofBits_one : Ideal.ofBits .f32 0x3F800000#32 = 1 := IdealRules.sign_bit.ideal_onePat .f32

end Cert.RnnSpec

end
-- ==== Proof.KernelSeg.lean ====
/-
  One run of columns of the log-softmax, as the kernel computes it on a block of rows, read at an entry.

  From a block `v` of `R` rows and 104 columns the kernel cuts the `n` columns from column `a` on, takes each row's
  maximum over them (a lane reduction started at minus infinity, kept as a column), subtracts it, exponentiates, sums
  each row (again kept as a column), takes the logarithm and subtracts that too. Read at row `p` and column `q` of the
  run this is `segLse` of the block's row `p` (continued by zero) at column `a + q`: the cut shifts the column by `a`,
  the lane reductions are the fold of `max` from `⊥` and the plain sum over the run's columns, and the two column
  broadcasts read the row's one entry. Nothing here depends on the number of rows or on the run's position and width,
  so one statement serves all ten runs.
-/
import Idealize.ShloMosaic.Lib.Pipeline.Value
import Idealize.ShloMosaic.Lib.ValueIdx
import Idealize.ShloMosaic.PureOps.Ideal.Laws
import proofs.«167510_j88983132438935_1_alg».proof.Proof.LibKeepdims
import proofs.«167510_j88983132438935_1_alg».proof.Proof.Spec

noncomputable section

namespace Cert.RnnSeg

open Idealize.ShloMosaic Idealize.ShloMosaic.ValueIdx Idealize.ShloMosaic.KeepdimsLayout Cert.RnnSpec

variable {R n : ℕ}

/-- In a reduction of a matrix along its columns, the source index over row `p` with column `k` put back is `(p, k)`. -/
theorem lift_eq (hr : (⟨2, ![R, n]⟩ : Shape).Reduces [1] ⟨1, ![R]⟩) (p : Fin R) (k : Fin n) :
    hr.lift (ix1 p) k = ix2 p k :=
  funext fun ax => Fin.ext (by match ax with | ⟨0, _⟩ => rfl | ⟨1, _⟩ => rfl)

section
variable (a : ℕ) (v : FVec Ideal ⟨2, ![R, 104]⟩ .f32)
  (hs : (⟨2, ![R, 104]⟩ : Shape).Slices ![0, a] ⟨2, ![R, n]⟩)
  (hr : (⟨2, ![R, n]⟩ : Shape).Reduces [1] ⟨1, ![R]⟩)
  (hc : (⟨1, ![R]⟩ : Shape).ShapeCasts ⟨2, ![R, 1]⟩)
  (hb : (⟨2, ![R, 1]⟩ : Shape).Broadcasts ⟨2, ![R, n]⟩)
  (hφ : FKind.Formats .f32) (hmax : (0xFF800000#32 : BitVec 32) = FKind.maximumf.neutral .f32 hφ)
  (hadd : (0x00000000#32 : BitVec 32) = FKind.add.neutral .f32 hφ)

/-- The run's columns cut out of the block. -/
def cut : FVec Ideal ⟨2, ![R, n]⟩ .f32 := extractStridedSlice ⟨2, ![R, n]⟩ ![0, a] v hs
/-- Each row's maximum over the run, as a column. -/
def rowMax : FVec Ideal ⟨2, ![R, 1]⟩ .f32 :=
  shapeCast ⟨2, ![R, 1]⟩ (multiReduction .maximumf [1] ⟨1, ![R]⟩ (cut a v hs) 0xFF800000#32 hr hφ hmax) hc
/-- The run with its row maximum taken off. -/
def shifted : FVec Ideal ⟨2, ![R, n]⟩ .f32 := subf (cut a v hs) (broadcastTo ⟨2, ![R, n]⟩ (rowMax a v hs hr hc hφ hmax) hb)
/-- Each row's sum of the exponentials of that, as a column. -/
def rowSum : FVec Ideal ⟨2, ![R, 1]⟩ .f32 :=
  shapeCast ⟨2, ![R, 1]⟩ (multiReduction .add [1] ⟨1, ![R]⟩ (exp (shifted a v hs hr hc hb hφ hmax)) 0x00000000#32 hr hφ hadd) hc
/-- The logarithm of the softmax over the run. -/
def segVec : FVec Ideal ⟨2, ![R, n]⟩ .f32 :=
  subf (shifted a v hs hr hc hb hφ hmax) (broadcastTo ⟨2, ![R, n]⟩ (log (rowSum a v hs hr hc hb hφ hmax hadd)) hb)

variable (ha : a + n ≤ 104) (p : Fin R)
include ha

/-- The cut at `(p, k)` is the block's row `p` at column `a + k`. -/
theorem cut_apply (k : Fin n) : cut a v hs (ix2 p k) = rowN (fun c => v (ix2 p c)) (a + k.val) := by
  have hk : a + k.val < 104 := by have := k.isLt; omega
  rw [rowN_of_lt _ _ hk]
  exact extractStridedSlice_apply ![0, a] v hs (ix2 p k) (ix2 p ⟨a + k.val, hk⟩) fun ax =>
    match ax with
    | ⟨0, _⟩ => by show p.val = 0 + p.val; omega
    | ⟨1, _⟩ => rfl

/-- The row maximum is the largest of the run's entries of the row. -/
theorem rowMax_apply (u : Fin 1) :
    rowMax a v hs hr hc hφ hmax (ix2 p u) = segMax (rowN fun c => v (ix2 p c)) a n := by
  unfold rowMax
  rw [shapeCast_a_a1_apply]
  refine (Ideal.multiReduction_maximumf_single (cut a v hs) _ hr hφ hmax (ix1 p)).trans ?_
  show (Finset.univ : Finset (Fin n)).fold max (Ideal.ofBits .f32 0xFF800000#32) (fun k : Fin n => cut a v hs (hr.lift (ix1 p) k))
    = (Finset.univ : Finset (Fin n)).fold max ⊥ fun k => rowN (fun c => v (ix2 p c)) (a + k.val)
  rw [ofBits_neg_inf]
  refine congrArg (fun f => Finset.fold max ⊥ f Finset.univ) (funext fun k => ?_)
  rw [lift_eq hr p k]
  exact cut_apply a v hs ha p k

/-- The shifted run at `(p, k)`. -/
theorem shifted_apply (k : Fin n) :
    shifted a v hs hr hc hb hφ hmax (ix2 p k)
      = rowN (fun c => v (ix2 p c)) (a + k.val) - segMax (rowN fun c => v (ix2 p c)) a n := by
  show cut a v hs (ix2 p k) - broadcastTo ⟨2, ![R, n]⟩ (rowMax a v hs hr hc hφ hmax) hb (ix2 p k) = _
  rw [broadcastTo_a1_ab_apply, rowMax_apply a v hs hr hc hφ hmax ha p, cut_apply a v hs ha p k]

/-- The row sum is the sum over the run of the exponentials of the shifted entries. -/
theorem rowSum_apply (u : Fin 1) :
    rowSum a v hs hr hc hb hφ hmax hadd (ix2 p u)
      = ∑ k : Fin n, Ideal.exp (rowN (fun c => v (ix2 p c)) (a + k.val) - segMax (rowN fun c => v (ix2 p c)) a n) := by
  unfold rowSum
  rw [shapeCast_a_a1_apply]
  refine (Ideal.multiReduction_add_single (exp (shifted a v hs hr hc hb hφ hmax)) _ hr hφ hadd (ix1 p)).trans ?_
  show ∑ k : Fin n, Ideal.exp (shifted a v hs hr hc hb hφ hmax (hr.lift (ix1 p) k)) = _
  refine Finset.sum_congr rfl fun k _ => ?_
  rw [lift_eq hr p k, shifted_apply a v hs hr hc hb hφ hmax ha p k]

/-- **The run at an entry**: `segLse` of the block's row at column `a + q`. -/
theorem segVec_apply (q : Fin n) :
    segVec a v hs hr hc hb hφ hmax hadd (ix2 p q) = segLse (rowN fun c => v (ix2 p c)) a n (a + q.val) := by
  show shifted a v hs hr hc hb hφ hmax (ix2 p q)
      - broadcastTo ⟨2, ![R, n]⟩ (log (rowSum a v hs hr hc hb hφ hmax hadd)) hb (ix2 p q) = _
  rw [broadcastTo_a1_ab_apply]
  show shifted a v hs hr hc hb hφ hmax (ix2 p q) - Ideal.log (rowSum a v hs hr hc hb hφ hmax hadd (ix2 p (0 : Fin 1))) = _
  rw [shifted_apply a v hs hr hc hb hφ hmax ha p q, rowSum_apply a v hs hr hc hb hφ hmax hadd ha p 0]
  rfl

end

end Cert.RnnSeg

end
-- ==== Proof.KernelBody.lean ====
/-
  The kernel's arithmetic on one block of 512 rows, read at an entry.

  The body forms, from the block's rows of `hidden` and `line` and the whole (transposed) weights and (row-shaped)
  biases, first the hidden state `logistic(hidden · Uᵀ + u + line · Wᵀ + w)` — two matrix products accumulated into
  zero, each a plain sum over the contracted axis, and two biases read through a row broadcast —, then the prediction
  `h · Vᵀ + v` the same way, and then the ten runs of the log-softmax, each the generic run of columns (`segVec`)
  of the prediction block, laid side by side. Read at row `p`: the hidden entry is `hidAt` of the block, and the output
  entry at column `c` is `lsm` of the prediction row at `c`. The narrowing of the operands to sixteen bits in front of
  the products is the identity on extended reals.
-/
import proofs.«167510_j88983132438935_1_alg».proof.Proof.Gen.KernelIdeal.Skeleton
import Idealize.ShloMosaic.Lib.Pipeline.Value
import Idealize.ShloMosaic.Lib.ValueLayout
import proofs.«167510_j88983132438935_1_alg».proof.Proof.LibDotRead
import proofs.«167510_j88983132438935_1_alg».proof.Proof.KernelSeg

noncomputable section

namespace Cert.KernelIdeal.Body

open Cert.KernelIdeal Cert.KernelIdeal.Gen Idealize.ShloMosaic Idealize.ShloMosaic.ValueIdx
open Idealize.ShloMosaic.DotRead Cert.RnnSpec Cert.RnnSeg

/-! ## The hidden state and the prediction -/

/-- The hidden state's payload at `(p, q)`, in the block's own terms. -/
theorem hidden_apply (x1 : FVec Ideal S512x2048 .bf16) (x2 : FVec Ideal S2048x2048 .bf16) (x0 : FVec Ideal S512x104 .bf16)
    (x4 : FVec Ideal S104x2048 .bf16) (x3 x5 : FVec Ideal S1x2048 .f32) (p : Fin 512) (q : Fin 2048) :
    k0_pay2 (F := Ideal) x1 x2 x0 x4 x3 x5 (ix2 p q)
      = Ideal.logistic ((((∑ k : Fin 2048, x1 (ix2 p k) * x2 (ix2 k q)) + x3 (ix2 (0 : Fin 1) q))
          + ∑ d : Fin 104, x0 (ix2 p d) * x4 (ix2 d q)) + x5 (ix2 (0 : Fin 1) q)) := by
  unfold k0_pay2
  simp only [shapeCast_self]
  refine congrArg Ideal.logistic ?_
  refine congrArg₂ (· + ·) (congrArg₂ (· + ·) (congrArg₂ (· + ·) ?_ ?_) ?_) ?_
  · exact matmul_plain_zero_apply 512 2048 2048 none x1 x2 p q
  · exact broadcastTo_1b_ab_apply x3 _ p q
  · exact matmul_plain_zero_apply 512 104 2048 none x0 x4 p q
  · exact broadcastTo_1b_ab_apply x5 _ p q

/-- With the weights read as the transposes they are and the biases as the rows they are, that is `hidAt` of the block. -/
theorem hidden_eq_hidAt (x1 : FVec Ideal S512x2048 .bf16) (x2 : FVec Ideal S2048x2048 .bf16) (x0 : FVec Ideal S512x104 .bf16)
    (x4 : FVec Ideal S104x2048 .bf16) (x3 x5 : FVec Ideal S1x2048 .f32)
    (Uw : Mat 2048 2048) (Ub : Vct 2048) (Ww : Mat 2048 104) (Wb : Vct 2048)
    (hU : ∀ (k q : Fin 2048), x2 (ix2 k q) = Uw (ix2 q k)) (hUb : ∀ q : Fin 2048, x3 (ix2 (0 : Fin 1) q) = Ub (ix1 q))
    (hW : ∀ (d : Fin 104) (q : Fin 2048), x4 (ix2 d q) = Ww (ix2 q d)) (hWb : ∀ q : Fin 2048, x5 (ix2 (0 : Fin 1) q) = Wb (ix1 q))
    (p : Fin 512) (q : Fin 2048) :
    k0_pay2 (F := Ideal) x1 x2 x0 x4 x3 x5 (ix2 p q) = hidAt (R := 512) x0 x1 Uw Ub Ww Wb p q := by
  rw [hidden_apply]
  unfold hidAt
  simp only [hU, hUb, hW, hWb]

/-- The prediction's payload at `(p, d)`: the product of the hidden block with the third weight, plus its bias. -/
theorem pred_apply (x1 : FVec Ideal S512x2048 .bf16) (x2 : FVec Ideal S2048x2048 .bf16) (x0 : FVec Ideal S512x104 .bf16)
    (x4 : FVec Ideal S104x2048 .bf16) (x3 x5 : FVec Ideal S1x2048 .f32) (x6 : FVec Ideal S2048x104 .bf16)
    (x7 : FVec Ideal S1x104 .f32) (p : Fin 512) (d : Fin 104) :
    k0_pay3 (F := Ideal) x1 x2 x0 x4 x3 x5 x6 x7 (ix2 p d)
      = (∑ k : Fin 2048, k0_pay2 (F := Ideal) x1 x2 x0 x4 x3 x5 (ix2 p k) * x6 (ix2 k d)) + x7 (ix2 (0 : Fin 1) d) := by
  unfold k0_pay3
  simp only [shapeCast_self]
  refine congrArg₂ (· + ·) ?_ ?_
  · exact matmul_plain_zero_apply 512 2048 104 none (truncf .bf16 (k0_pay2 (F := Ideal) x1 x2 x0 x4 x3 x5) bitsLt_bf16_f32) x6 p d
  · exact broadcastTo_1b_ab_apply x7 _ p d

/-! ## The ten runs side by side -/

/-- A column counted inside a run that ends within the 104 columns is one of the 104 columns. -/
theorem col_lt {a n : ℕ} (h : a + n ≤ 104) (q : Fin n) : a + q.val < 104 := by have := q.isLt; omega

/-- The ten runs of a prediction block `v`, as the list the concatenation takes. -/
def pieces (v : FVec Ideal S512x104 .f32) : List ((s : Shape) × (s.Idx → EReal)) :=
  [ ⟨S512x13, segVec 0 v slices_S512x104_o0_0_S512x13 reduces_S512x13_S512 shapeCasts_S512_S512x1 broadcasts_S512x1_S512x13 (.inl rfl) rfl rfl⟩,
    ⟨S512x13, segVec 13 v slices_S512x104_o0_13_S512x13 reduces_S512x13_S512 shapeCasts_S512_S512x1 broadcasts_S512x1_S512x13 (.inl rfl) rfl rfl⟩,
    ⟨S512x13, segVec 26 v slices_S512x104_o0_26_S512x13 reduces_S512x13_S512 shapeCasts_S512_S512x1 broadcasts_S512x1_S512x13 (.inl rfl) rfl rfl⟩,
    ⟨S512x9, segVec 39 v slices_S512x104_o0_39_S512x9 reduces_S512x9_S512 shapeCasts_S512_S512x1 broadcasts_S512x1_S512x9 (.inl rfl) rfl rfl⟩,
    ⟨S512x4, segVec 48 v slices_S512x104_o0_48_S512x4 reduces_S512x4_S512 shapeCasts_S512_S512x1 broadcasts_S512x1_S512x4 (.inl rfl) rfl rfl⟩,
    ⟨S512x13, segVec 52 v slices_S512x104_o0_52_S512x13 reduces_S512x13_S512 shapeCasts_S512_S512x1 broadcasts_S512x1_S512x13 (.inl rfl) rfl rfl⟩,
    ⟨S512x13, segVec 65 v slices_S512x104_o0_65_S512x13 reduces_S512x13_S512 shapeCasts_S512_S512x1 broadcasts_S512x1_S512x13 (.inl rfl) rfl rfl⟩,
    ⟨S512x13, segVec 78 v slices_S512x104_o0_78_S512x13 reduces_S512x13_S512 shapeCasts_S512_S512x1 broadcasts_S512x1_S512x13 (.inl rfl) rfl rfl⟩,
    ⟨S512x9, segVec 91 v slices_S512x104_o0_91_S512x9 reduces_S512x9_S512 shapeCasts_S512_S512x1 broadcasts_S512x1_S512x9 (.inl rfl) rfl rfl⟩,
    ⟨S512x4, segVec 100 v slices_S512x104_o0_100_S512x4 reduces_S512x4_S512 shapeCasts_S512_S512x1 broadcasts_S512x1_S512x4 (.inl rfl) rfl rfl⟩ ]

/-- The output block made from a prediction block. -/
def joined (v : FVec Ideal S512x104 .f32) : FVec Ideal S512x104 .f32 :=
  concatenate S512x104 1 (pieces v) concatenates_S512x13_S512x13_S512x13_S512x9_S512x4_S512x13_S512x13_S512x13_S512x9_S512x4_S512x104_d1

/-- The store's payload is the ten runs of the prediction payload, side by side: the definitions unfold to one another. -/
theorem out_eq_joined (x1 : FVec Ideal S512x2048 .bf16) (x2 : FVec Ideal S2048x2048 .bf16) (x0 : FVec Ideal S512x104 .bf16)
    (x4 : FVec Ideal S104x2048 .bf16) (x3 x5 : FVec Ideal S1x2048 .f32) (x6 : FVec Ideal S2048x104 .bf16)
    (x7 : FVec Ideal S1x104 .f32) :
    k0_pay1 (F := Ideal) (k0_pay3 (F := Ideal) x1 x2 x0 x4 x3 x5 x6 x7)
        (k0_pay7 (F := Ideal) (k0_pay4 (F := Ideal) x1 x2 x0 x4 x3 x5 x6 x7) (k0_pay5 (F := Ideal) x1 x2 x0 x4 x3 x5 x6 x7) (k0_pay6 (F := Ideal) x1 x2 x0 x4 x3 x5 x6 x7))
        (k0_pay8 (F := Ideal) (k0_pay3 (F := Ideal) x1 x2 x0 x4 x3 x5 x6 x7)) (k0_pay9 (F := Ideal) (k0_pay3 (F := Ideal) x1 x2 x0 x4 x3 x5 x6 x7))
        (k0_pay10 (F := Ideal) (k0_pay3 (F := Ideal) x1 x2 x0 x4 x3 x5 x6 x7))
        (k0_pay14 (F := Ideal) (k0_pay11 (F := Ideal) (k0_pay3 (F := Ideal) x1 x2 x0 x4 x3 x5 x6 x7)) (k0_pay12 (F := Ideal) (k0_pay3 (F := Ideal) x1 x2 x0 x4 x3 x5 x6 x7))
          (k0_pay13 (F := Ideal) (k0_pay3 (F := Ideal) x1 x2 x0 x4 x3 x5 x6 x7)))
        (k0_pay15 (F := Ideal) (k0_pay3 (F := Ideal) x1 x2 x0 x4 x3 x5 x6 x7)) (k0_pay16 (F := Ideal) (k0_pay3 (F := Ideal) x1 x2 x0 x4 x3 x5 x6 x7))
        (k0_pay17 (F := Ideal) (k0_pay3 (F := Ideal) x1 x2 x0 x4 x3 x5 x6 x7)) (k0_pay18 (F := Ideal) (k0_pay3 (F := Ideal) x1 x2 x0 x4 x3 x5 x6 x7))
        (k0_pay19 (F := Ideal) (k0_pay3 (F := Ideal) x1 x2 x0 x4 x3 x5 x6 x7)) (k0_pay20 (F := Ideal) (k0_pay3 (F := Ideal) x1 x2 x0 x4 x3 x5 x6 x7))
      = joined (k0_pay3 (F := Ideal) x1 x2 x0 x4 x3 x5 x6 x7) := rfl

/-- The concatenation read at a column inside piece `k`, which starts at column `a` and has `n` columns: that piece at
    the same row and the column counted from `a`. -/
theorem joined_piece (v : FVec Ideal S512x104 .f32) (p : Fin 512) (k : ℕ) (hk : k < (pieces v).length) (n : ℕ)
    (x : FVec Ideal ⟨2, ![512, n]⟩ .f32) (hx : (pieces v)[k] = ⟨⟨2, ![512, n]⟩, x⟩) (a : ℕ)
    (hpre : ((((pieces v).take k).map (·.1)).map fun s : Shape =>
      if h : s.rank = S512x104.rank then s.size ((1 : Fin S512x104.rank).cast h.symm) else 0).sum = a)
    (q : Fin n) (hq : a + q.val < 104) :
    joined v (ix2 p (⟨a + q.val, hq⟩ : Fin 104)) = x (ix2 p q) :=
  concatenate_apply_piece (1 : Fin S512x104.rank) (pieces v) concatenates_S512x13_S512x13_S512x13_S512x9_S512x4_S512x13_S512x13_S512x13_S512x9_S512x4_S512x104_d1
    (ix2 p (⟨a + q.val, hq⟩ : Fin 104)) k hk ⟨2, ![512, n]⟩ x hx rfl a hpre (ix2 p q)
    (fun b hb => match b with
      | ⟨0, _⟩ => rfl
      | ⟨1, _⟩ => absurd rfl hb)
    rfl

/-- Columns 0 to 12: the first run. -/
theorem joined_seg0 (v : FVec Ideal S512x104 .f32) (p : Fin 512) (q : Fin 13) :
    joined v (ix2 p (⟨0 + q.val, col_lt (by decide) q⟩ : Fin 104)) = lsm (rowN fun c => v (ix2 p c)) (0 + q.val) := by
  rw [lsm_seg0 _ _ q.isLt]
  exact (joined_piece v p 0 (show 0 < 10 by decide) 13 (segVec 0 v slices_S512x104_o0_0_S512x13 reduces_S512x13_S512 shapeCasts_S512_S512x1 broadcasts_S512x1_S512x13 (.inl rfl) rfl rfl) rfl 0 rfl q _).trans
    (segVec_apply 0 v slices_S512x104_o0_0_S512x13 reduces_S512x13_S512 shapeCasts_S512_S512x1 broadcasts_S512x1_S512x13 (.inl rfl) rfl rfl (by decide) p q)

/-- Columns 13 to 25: the second run. -/
theorem joined_seg1 (v : FVec Ideal S512x104 .f32) (p : Fin 512) (q : Fin 13) :
    joined v (ix2 p (⟨13 + q.val, col_lt (by decide) q⟩ : Fin 104)) = lsm (rowN fun c => v (ix2 p c)) (13 + q.val) := by
  rw [lsm_seg1 _ _ q.isLt]
  exact (joined_piece v p 1 (show 1 < 10 by decide) 13 (segVec 13 v slices_S512x104_o0_13_S512x13 reduces_S512x13_S512 shapeCasts_S512_S512x1 broadcasts_S512x1_S512x13 (.inl rfl) rfl rfl) rfl 13 rfl q _).trans
    (segVec_apply 13 v slices_S512x104_o0_13_S512x13 reduces_S512x13_S512 shapeCasts_S512_S512x1 broadcasts_S512x1_S512x13 (.inl rfl) rfl rfl (by decide) p q)

/-- Columns 26 to 38: the third run. -/
theorem joined_seg2 (v : FVec Ideal S512x104 .f32) (p : Fin 512) (q : Fin 13) :
    joined v (ix2 p (⟨26 + q.val, col_lt (by decide) q⟩ : Fin 104)) = lsm (rowN fun c => v (ix2 p c)) (26 + q.val) := by
  rw [lsm_seg2 _ _ q.isLt]
  exact (joined_piece v p 2 (show 2 < 10 by decide) 13 (segVec 26 v slices_S512x104_o0_26_S512x13 reduces_S512x13_S512 shapeCasts_S512_S512x1 broadcasts_S512x1_S512x13 (.inl rfl) rfl rfl) rfl 26 rfl q _).trans
    (segVec_apply 26 v slices_S512x104_o0_26_S512x13 reduces_S512x13_S512 shapeCasts_S512_S512x1 broadcasts_S512x1_S512x13 (.inl rfl) rfl rfl (by decide) p q)

/-- Columns 39 to 47: the fourth run. -/
theorem joined_seg3 (v : FVec Ideal S512x104 .f32) (p : Fin 512) (q : Fin 9) :
    joined v (ix2 p (⟨39 + q.val, col_lt (by decide) q⟩ : Fin 104)) = lsm (rowN fun c => v (ix2 p c)) (39 + q.val) := by
  rw [lsm_seg3 _ _ q.isLt]
  exact (joined_piece v p 3 (show 3 < 10 by decide) 9 (segVec 39 v slices_S512x104_o0_39_S512x9 reduces_S512x9_S512 shapeCasts_S512_S512x1 broadcasts_S512x1_S512x9 (.inl rfl) rfl rfl) rfl 39 rfl q _).trans
    (segVec_apply 39 v slices_S512x104_o0_39_S512x9 reduces_S512x9_S512 shapeCasts_S512_S512x1 broadcasts_S512x1_S512x9 (.inl rfl) rfl rfl (by decide) p q)

/-- Columns 48 to 51: the fifth run. -/
theorem joined_seg4 (v : FVec Ideal S512x104 .f32) (p : Fin 512) (q : Fin 4) :
    joined v (ix2 p (⟨48 + q.val, col_lt (by decide) q⟩ : Fin 104)) = lsm (rowN fun c => v (ix2 p c)) (48 + q.val) := by
  rw [lsm_seg4 _ _ q.isLt]
  exact (joined_piece v p 4 (show 4 < 10 by decide) 4 (segVec 48 v slices_S512x104_o0_48_S512x4 reduces_S512x4_S512 shapeCasts_S512_S512x1 broadcasts_S512x1_S512x4 (.inl rfl) rfl rfl) rfl 48 rfl q _).trans
    (segVec_apply 48 v slices_S512x104_o0_48_S512x4 reduces_S512x4_S512 shapeCasts_S512_S512x1 broadcasts_S512x1_S512x4 (.inl rfl) rfl rfl (by decide) p q)

/-- Columns 52 to 64: the sixth run. -/
theorem joined_seg5 (v : FVec Ideal S512x104 .f32) (p : Fin 512) (q : Fin 13) :
    joined v (ix2 p (⟨52 + q.val, col_lt (by decide) q⟩ : Fin 104)) = lsm (rowN fun c => v (ix2 p c)) (52 + q.val) := by
  rw [lsm_seg5 _ _ q.isLt]
  exact (joined_piece v p 5 (show 5 < 10 by decide) 13 (segVec 52 v slices_S512x104_o0_52_S512x13 reduces_S512x13_S512 shapeCasts_S512_S512x1 broadcasts_S512x1_S512x13 (.inl rfl) rfl rfl) rfl 52 rfl q _).trans
    (segVec_apply 52 v slices_S512x104_o0_52_S512x13 reduces_S512x13_S512 shapeCasts_S512_S512x1 broadcasts_S512x1_S512x13 (.inl rfl) rfl rfl (by decide) p q)

/-- Columns 65 to 77: the seventh run. -/
theorem joined_seg6 (v : FVec Ideal S512x104 .f32) (p : Fin 512) (q : Fin 13) :
    joined v (ix2 p (⟨65 + q.val, col_lt (by decide) q⟩ : Fin 104)) = lsm (rowN fun c => v (ix2 p c)) (65 + q.val) := by
  rw [lsm_seg6 _ _ q.isLt]
  exact (joined_piece v p 6 (show 6 < 10 by decide) 13 (segVec 65 v slices_S512x104_o0_65_S512x13 reduces_S512x13_S512 shapeCasts_S512_S512x1 broadcasts_S512x1_S512x13 (.inl rfl) rfl rfl) rfl 65 rfl q _).trans
    (segVec_apply 65 v slices_S512x104_o0_65_S512x13 reduces_S512x13_S512 shapeCasts_S512_S512x1 broadcasts_S512x1_S512x13 (.inl rfl) rfl rfl (by decide) p q)

/-- Columns 78 to 90: the eighth run. -/
theorem joined_seg7 (v : FVec Ideal S512x104 .f32) (p : Fin 512) (q : Fin 13) :
    joined v (ix2 p (⟨78 + q.val, col_lt (by decide) q⟩ : Fin 104)) = lsm (rowN fun c => v (ix2 p c)) (78 + q.val) := by
  rw [lsm_seg7 _ _ q.isLt]
  exact (joined_piece v p 7 (show 7 < 10 by decide) 13 (segVec 78 v slices_S512x104_o0_78_S512x13 reduces_S512x13_S512 shapeCasts_S512_S512x1 broadcasts_S512x1_S512x13 (.inl rfl) rfl rfl) rfl 78 rfl q _).trans
    (segVec_apply 78 v slices_S512x104_o0_78_S512x13 reduces_S512x13_S512 shapeCasts_S512_S512x1 broadcasts_S512x1_S512x13 (.inl rfl) rfl rfl (by decide) p q)

/-- Columns 91 to 99: the ninth run. -/
theorem joined_seg8 (v : FVec Ideal S512x104 .f32) (p : Fin 512) (q : Fin 9) :
    joined v (ix2 p (⟨91 + q.val, col_lt (by decide) q⟩ : Fin 104)) = lsm (rowN fun c => v (ix2 p c)) (91 + q.val) := by
  rw [lsm_seg8 _ _ q.isLt]
  exact (joined_piece v p 8 (show 8 < 10 by decide) 9 (segVec 91 v slices_S512x104_o0_91_S512x9 reduces_S512x9_S512 shapeCasts_S512_S512x1 broadcasts_S512x1_S512x9 (.inl rfl) rfl rfl) rfl 91 rfl q _).trans
    (segVec_apply 91 v slices_S512x104_o0_91_S512x9 reduces_S512x9_S512 shapeCasts_S512_S512x1 broadcasts_S512x1_S512x9 (.inl rfl) rfl rfl (by decide) p q)

/-- Columns 100 to 103: the tenth run. -/
theorem joined_seg9 (v : FVec Ideal S512x104 .f32) (p : Fin 512) (q : Fin 4) :
    joined v (ix2 p (⟨100 + q.val, col_lt (by decide) q⟩ : Fin 104)) = lsm (rowN fun c => v (ix2 p c)) (100 + q.val) := by
  rw [lsm_seg9 _ _ q.isLt]
  exact (joined_piece v p 9 (show 9 < 10 by decide) 4 (segVec 100 v slices_S512x104_o0_100_S512x4 reduces_S512x4_S512 shapeCasts_S512_S512x1 broadcasts_S512x1_S512x4 (.inl rfl) rfl rfl) rfl 100 rfl q _).trans
    (segVec_apply 100 v slices_S512x104_o0_100_S512x4 reduces_S512x4_S512 shapeCasts_S512_S512x1 broadcasts_S512x1_S512x4 (.inl rfl) rfl rfl (by decide) p q)

/-- **The output block at an entry**: the segmented log-softmax of the prediction block's row, at the column. -/
theorem joined_apply (v : FVec Ideal S512x104 .f32) (p : Fin 512) (c : Fin 104) :
    joined v (ix2 p c) = lsm (rowN fun c' => v (ix2 p c')) c.val := by
  have hc := c.isLt
  rcases (by omega : c.val < 13 ∨ (13 ≤ c.val ∧ c.val < 26) ∨ (26 ≤ c.val ∧ c.val < 39) ∨ (39 ≤ c.val ∧ c.val < 48)
      ∨ (48 ≤ c.val ∧ c.val < 52) ∨ (52 ≤ c.val ∧ c.val < 65) ∨ (65 ≤ c.val ∧ c.val < 78) ∨ (78 ≤ c.val ∧ c.val < 91)
      ∨ (91 ≤ c.val ∧ c.val < 100) ∨ (100 ≤ c.val ∧ c.val < 104)) with h | h | h | h | h | h | h | h | h | h
  · obtain ⟨q, rfl⟩ : ∃ q : Fin 13, c = ⟨0 + q.val, col_lt (by decide) q⟩ :=
      ⟨⟨c.val - 0, by omega⟩, Fin.ext (by show c.val = 0 + (c.val - 0); omega)⟩
    exact joined_seg0 v p q
  · obtain ⟨q, rfl⟩ : ∃ q : Fin 13, c = ⟨13 + q.val, col_lt (by decide) q⟩ :=
      ⟨⟨c.val - 13, by omega⟩, Fin.ext (by show c.val = 13 + (c.val - 13); omega)⟩
    exact joined_seg1 v p q
  · obtain ⟨q, rfl⟩ : ∃ q : Fin 13, c = ⟨26 + q.val, col_lt (by decide) q⟩ :=
      ⟨⟨c.val - 26, by omega⟩, Fin.ext (by show c.val = 26 + (c.val - 26); omega)⟩
    exact joined_seg2 v p q
  · obtain ⟨q, rfl⟩ : ∃ q : Fin 9, c = ⟨39 + q.val, col_lt (by decide) q⟩ :=
      ⟨⟨c.val - 39, by omega⟩, Fin.ext (by show c.val = 39 + (c.val - 39); omega)⟩
    exact joined_seg3 v p q
  · obtain ⟨q, rfl⟩ : ∃ q : Fin 4, c = ⟨48 + q.val, col_lt (by decide) q⟩ :=
      ⟨⟨c.val - 48, by omega⟩, Fin.ext (by show c.val = 48 + (c.val - 48); omega)⟩
    exact joined_seg4 v p q
  · obtain ⟨q, rfl⟩ : ∃ q : Fin 13, c = ⟨52 + q.val, col_lt (by decide) q⟩ :=
      ⟨⟨c.val - 52, by omega⟩, Fin.ext (by show c.val = 52 + (c.val - 52); omega)⟩
    exact joined_seg5 v p q
  · obtain ⟨q, rfl⟩ : ∃ q : Fin 13, c = ⟨65 + q.val, col_lt (by decide) q⟩ :=
      ⟨⟨c.val - 65, by omega⟩, Fin.ext (by show c.val = 65 + (c.val - 65); omega)⟩
    exact joined_seg6 v p q
  · obtain ⟨q, rfl⟩ : ∃ q : Fin 13, c = ⟨78 + q.val, col_lt (by decide) q⟩ :=
      ⟨⟨c.val - 78, by omega⟩, Fin.ext (by show c.val = 78 + (c.val - 78); omega)⟩
    exact joined_seg7 v p q
  · obtain ⟨q, rfl⟩ : ∃ q : Fin 9, c = ⟨91 + q.val, col_lt (by decide) q⟩ :=
      ⟨⟨c.val - 91, by omega⟩, Fin.ext (by show c.val = 91 + (c.val - 91); omega)⟩
    exact joined_seg8 v p q
  · obtain ⟨q, rfl⟩ : ∃ q : Fin 4, c = ⟨100 + q.val, col_lt (by decide) q⟩ :=
      ⟨⟨c.val - 100, by omega⟩, Fin.ext (by show c.val = 100 + (c.val - 100); omega)⟩
    exact joined_seg9 v p q

end Cert.KernelIdeal.Body

end
-- ==== Proof.KernelValue.lean ====
/-
  The kernel's two result arrays after its run, as the two functions of the arguments.

  The kernel walks 16 grid points; at point `t` it is handed rows `512·t … 512·t + 511` of `line` and of `hidden` (whose
  narrowing to sixteen bits is the identity on extended reals), the three weights whole — each the transpose of its
  argument — and the three biases whole, each laid as a single row; and it writes back rows `512·t …` of both results.
  So (1) each window's array, as the region finds it, is read back to an argument; (2) each block's entry is named by
  coordinates, row `p` of block `t` being row `512·t + p` of the array; (3) what point `t` writes back is block `t` of the
  specification's array — the body's arithmetic on the block (the body module) with the block reads substituted —; and
  (4) every row lies in the block of the point `row / 512`, so the blocks cover both arrays and each array IS the
  specification's function.
-/
import proofs.«167510_j88983132438935_1_alg».proof.Proof.Gen.KernelIdeal.Value
import proofs.«167510_j88983132438935_1_alg».proof.Proof.KernelBody
import Idealize.ShloMosaic.Lib.StableHlo.Run
import Idealize.ShloMosaic.Lib.ValueLayout

noncomputable section

namespace Cert.KernelIdeal.RnnValue

open Cert.KernelIdeal Cert.KernelIdeal.Gen Cert.KernelIdeal.Value Cert.KernelIdeal.Body
open Idealize.ShloMosaic Idealize.ShloMosaic.TcCoe Idealize.SL.Sem Idealize.ShloMosaic.ValueIdx Idealize.ShloMosaic.StableHlo
open Cert.RnnSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

theorem V_line (c : Dev nD) : (V m c main_v9 : S8192x104.Idx → EReal) = m ((c : Thread nD τ).loc main_arg0) := by
  dsimp only [Gen.V, Gen.hostOps0]; after_results; rfl
theorem V_hidden (c : Dev nD) : (V m c main_v10 : S8192x2048.Idx → EReal) = m ((c : Thread nD τ).loc main_arg1) := by
  dsimp only [Gen.V, Gen.hostOps0]; after_results; rfl
theorem V_Ut (c : Dev nD) : (V m c main_v1 : S2048x2048.Idx → EReal)
    = transpose S2048x2048 [1, 0] (m ((c : Thread nD τ).loc main_arg2)) transposes_S2048x2048_S2048x2048_1_0 := by
  dsimp only [Gen.V, Gen.hostOps0]; after_results; rfl
theorem V_Wt (c : Dev nD) : (V m c main_v3 : S104x2048.Idx → EReal)
    = transpose S104x2048 [1, 0] (m ((c : Thread nD τ).loc main_arg4)) transposes_S2048x104_S104x2048_1_0 := by
  dsimp only [Gen.V, Gen.hostOps0]; after_results; rfl
theorem V_Vt (c : Dev nD) : (V m c main_v5 : S2048x104.Idx → EReal)
    = transpose S2048x104 [1, 0] (m ((c : Thread nD τ).loc main_arg6)) transposes_S104x2048_S2048x104_1_0 := by
  dsimp only [Gen.V, Gen.hostOps0]; after_results; rfl
theorem V_Ub (c : Dev nD) : (V m c main_v6 : S1x2048.Idx → EReal)
    = shapeCast S1x2048 (m ((c : Thread nD τ).loc main_arg3)) shapeCasts_S2048_S1x2048 := by
  dsimp only [Gen.V, Gen.hostOps0]; after_results; rfl
theorem V_Wb (c : Dev nD) : (V m c main_v7 : S1x2048.Idx → EReal)
    = shapeCast S1x2048 (m ((c : Thread nD τ).loc main_arg5)) shapeCasts_S2048_S1x2048 := by
  dsimp only [Gen.V, Gen.hostOps0]; after_results; rfl
theorem V_Vb (c : Dev nD) : (V m c main_v8 : S1x104.Idx → EReal)
    = shapeCast S1x104 (m ((c : Thread nD τ).loc main_arg7)) shapeCasts_S104_S1x104 := by
  dsimp only [Gen.V, Gen.hostOps0]; after_results; rfl

/-! ## The blocks by coordinates -/

/-- The printed index maps, decided once over the 16 points: the four batch windows sit at block row `t`, everything
    else at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 16 := Nat.lt_of_lt_of_eq t.isLt N_0

/-- Row `p` of block `t`, as a row of the whole batch. -/
def row (t : Fin cfg0.N) (p : Fin 512) : Fin 8192 := ⟨t.val * 512 + p.val, by have := t_lt t; have := p.isLt; omega⟩

variable (c : Dev nD) (t : Fin cfg0.N)

theorem blk_line (p : Fin 512) (d : Fin 104) :
    iblk m c 0 t (ix2 p d) = m ((c : Thread nD τ).loc main_arg0) (ix2 (row t p) d) := by
  show V m c main_v9 (((cfg0.win 0).blk t).view.emb (ix2 p d)) = _
  rw [V_line]
  obtain ⟨e0, e1, -⟩ := idx_facts t
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 104 + 1 * d.val = d.val; omega

theorem blk_hidden (p : Fin 512) (k : Fin 2048) :
    iblk m c 1 t (ix2 p k) = m ((c : Thread nD τ).loc main_arg1) (ix2 (row t p) k) := by
  show V m c main_v10 (((cfg0.win 1).blk t).view.emb (ix2 p k)) = _
  rw [V_hidden]
  obtain ⟨-, -, e0, e1, -⟩ := idx_facts t
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 2048 + 1 * k.val = k.val; omega

theorem blk_Ut (k q : Fin 2048) : iblk m c 2 t (ix2 k q) = m ((c : Thread nD τ).loc main_arg2) (ix2 q k) := by
  show V m c main_v1 (((cfg0.win 2).blk t).view.emb (ix2 k q)) = _
  rw [V_Ut]
  obtain ⟨-, -, -, -, e0, e1, -⟩ := idx_facts t
  refine transpose_apply [1, 0] _ _ _ (ix2 q k) fun b => ?_
  match b with
  | ⟨0, _⟩ => show k.val = win0_2.index t (0 : Fin 2) * 2048 + 1 * k.val; omega
  | ⟨1, _⟩ => show q.val = win0_2.index t (1 : Fin 2) * 2048 + 1 * q.val; omega

theorem blk_Wt (d : Fin 104) (q : Fin 2048) : iblk m c 4 t (ix2 d q) = m ((c : Thread nD τ).loc main_arg4) (ix2 q d) := by
  show V m c main_v3 (((cfg0.win 4).blk t).view.emb (ix2 d q)) = _
  rw [V_Wt]
  obtain ⟨-, -, -, -, -, -, -, -, e0, e1, -⟩ := idx_facts t
  refine transpose_apply [1, 0] _ _ _ (ix2 q d) fun b => ?_
  match b with
  | ⟨0, _⟩ => show d.val = win0_4.index t (0 : Fin 2) * 104 + 1 * d.val; omega
  | ⟨1, _⟩ => show q.val = win0_4.index t (1 : Fin 2) * 2048 + 1 * q.val; omega

theorem blk_Vt (k : Fin 2048) (d : Fin 104) : iblk m c 6 t (ix2 k d) = m ((c : Thread nD τ).loc main_arg6) (ix2 d k) := by
  show V m c main_v5 (((cfg0.win 6).blk t).view.emb (ix2 k d)) = _
  rw [V_Vt]
  obtain ⟨-, -, -, -, -, -, -, -, -, -, -, -, e0, e1, -⟩ := idx_facts t
  refine transpose_apply [1, 0] _ _ _ (ix2 d k) fun b => ?_
  match b with
  | ⟨0, _⟩ => show k.val = win0_6.index t (0 : Fin 2) * 2048 + 1 * k.val; omega
  | ⟨1, _⟩ => show d.val = win0_6.index t (1 : Fin 2) * 104 + 1 * d.val; omega

theorem blk_Ub (q : Fin 2048) : iblk m c 3 t (ix2 (0 : Fin 1) q) = m ((c : Thread nD τ).loc main_arg3) (ix1 q) := by
  show V m c main_v6 (((cfg0.win 3).blk t).view.emb (ix2 (0 : Fin 1) q)) = _
  rw [V_Ub]
  obtain ⟨-, -, -, -, -, -, e0, e1, -⟩ := idx_facts t
  have he : ((cfg0.win 3).blk t).view.emb (ix2 (0 : Fin 1) q) = ix2 (0 : Fin 1) q := funext fun a => Fin.ext (by
    match a with
    | ⟨0, _⟩ => show win0_3.index t (0 : Fin 2) * 1 + 1 * 0 = 0; omega
    | ⟨1, _⟩ => show win0_3.index t (1 : Fin 2) * 2048 + 1 * q.val = q.val; omega)
  rw [he]
  exact shapeCast_a_1a_apply _ _ 0 q

theorem blk_Wb (q : Fin 2048) : iblk m c 5 t (ix2 (0 : Fin 1) q) = m ((c : Thread nD τ).loc main_arg5) (ix1 q) := by
  show V m c main_v7 (((cfg0.win 5).blk t).view.emb (ix2 (0 : Fin 1) q)) = _
  rw [V_Wb]
  obtain ⟨-, -, -, -, -, -, -, -, -, -, e0, e1, -⟩ := idx_facts t
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 2048 + 1 * q.val = q.val; omega)
  rw [he]
  exact shapeCast_a_1a_apply _ _ 0 q

theorem blk_Vb (d : Fin 104) : iblk m c 7 t (ix2 (0 : Fin 1) d) = m ((c : Thread nD τ).loc main_arg7) (ix1 d) := by
  show V m c main_v8 (((cfg0.win 7).blk t).view.emb (ix2 (0 : Fin 1) d)) = _
  rw [V_Vb]
  obtain ⟨-, -, -, -, -, -, -, -, -, -, -, -, -, -, e0, e1, -⟩ := idx_facts t
  have he : ((cfg0.win 7).blk t).view.emb (ix2 (0 : Fin 1) d) = ix2 (0 : Fin 1) d := funext fun a => Fin.ext (by
    match a with
    | ⟨0, _⟩ => show win0_7.index t (0 : Fin 2) * 1 + 1 * 0 = 0; omega
    | ⟨1, _⟩ => show win0_7.index t (1 : Fin 2) * 104 + 1 * d.val = d.val; omega)
  rw [he]
  exact shapeCast_a_1a_apply _ _ 0 d

/-- An entry of output block `t`, as an entry of the whole array: row `512·t + p`, same column. -/
theorem emb_out (p : Fin 512) (d : Fin 104) : ((cfg0.win 8).blk t).view.emb (ix2 p d) = ix2 (row t p) d := by
  obtain ⟨-, -, -, -, -, -, -, -, -, -, -, -, -, -, -, -, e0, e1, -⟩ := idx_facts t
  refine funext fun a => Fin.ext ?_
  match a with
  | ⟨0, _⟩ => show win0_8.index t (0 : Fin 2) * 512 + 1 * p.val = t.val * 512 + p.val; omega
  | ⟨1, _⟩ => show win0_8.index t (1 : Fin 2) * 104 + 1 * d.val = d.val; omega

theorem emb_hid (p : Fin 512) (q : Fin 2048) : ((cfg0.win 9).blk t).view.emb (ix2 p q) = ix2 (row t p) q := by
  obtain ⟨-, -, -, -, -, -, -, -, -, -, -, -, -, -, -, -, -, -, e0, e1⟩ := idx_facts t
  refine funext fun a => Fin.ext ?_
  match a with
  | ⟨0, _⟩ => show win0_9.index t (0 : Fin 2) * 512 + 1 * p.val = t.val * 512 + p.val; omega
  | ⟨1, _⟩ => show win0_9.index t (1 : Fin 2) * 2048 + 1 * q.val = q.val; omega

/-! ## What a point computes -/

/-- The hidden state's payload on the blocks of point `t`, at `(p, q)`: the specification's entry `(512·t + p, q)`. -/
theorem hid_point (p : Fin 512) (q : Fin 2048) :
    k0_pay2 (F := Ideal) (iblk m c 1 t) (iblk m c 2 t) (iblk m c 0 t) (iblk m c 4 t) (iblk m c 3 t) (iblk m c 5 t) (ix2 p q)
      = hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t p) q := by
  refine (hidden_eq_hidAt _ _ _ _ _ _ (m ((c : Thread nD τ).loc main_arg2)) (m ((c : Thread nD τ).loc main_arg3)) (m ((c : Thread nD τ).loc main_arg4)) (m ((c : Thread nD τ).loc main_arg5))
    (fun k q => blk_Ut m c t k q) (fun q => blk_Ub m c t q) (fun d q => blk_Wt m c t d q) (fun q => blk_Wb m c t q) p q).trans ?_
  unfold hidAt
  simp only [blk_line, blk_hidden]

/-- The output's payload on the blocks of point `t`, at `(p, d)`: the specification's entry `(512·t + p, d)`. -/
theorem out_point (p : Fin 512) (d : Fin 104) :
    joined (k0_pay3 (F := Ideal) (iblk m c 1 t) (iblk m c 2 t) (iblk m c 0 t) (iblk m c 4 t) (iblk m c 3 t) (iblk m c 5 t) (iblk m c 6 t) (iblk m c 7 t)) (ix2 p d)
      = lsm (rowN (predAt (fun k => hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t p) k) (m ((c : Thread nD τ).loc main_arg6)) (m ((c : Thread nD τ).loc main_arg7)))) d.val := by
  rw [joined_apply]
  refine congrArg (fun f => lsm (rowN f) d.val) (funext fun d' => ?_)
  refine (pred_apply _ _ _ _ _ _ _ _ p d').trans ?_
  unfold predAt
  simp only [hid_point, blk_Vt, blk_Vb]

/-! ## What a point writes back -/

theorem flushed_hid (t : Fin cfg0.N) :
    (dats m 0 c).flushed 9 t
      = ((cfg0.win 9).blk t).view.read (Elt Ideal) (hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed9]
  unfold out0_9
  rw [View.canon_unit_zero hz]
  simp only [View.ld_unit_zero (S := S512x2048) hz, View.ld_unit_zero (S := S2048x2048) hz, View.ld_unit_zero (S := S512x104) hz,
    View.ld_unit_zero (S := S104x2048) hz, View.ld_unit_zero (S := S1x2048) hz]
  funext y
  obtain ⟨p, q, rfl⟩ : ∃ (p : Fin 512) (q : Fin 2048), y = ix2 p q := ⟨y 0, y 1, eq_ix2 y⟩
  show k0_pay2 (F := Ideal) (iblk m c 1 t) (iblk m c 2 t) (iblk m c 0 t) (iblk m c 4 t) (iblk m c 3 t) (iblk m c 5 t) (ix2 p q)
    = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb (ix2 p q))
  rw [emb_hid, hid_point]
  rfl

theorem flushed_out (t : Fin cfg0.N) :
    (dats m 0 c).flushed 8 t
      = ((cfg0.win 8).blk t).view.read (Elt Ideal) (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [flushed8]
  unfold out0_8
  rw [View.canon_unit_zero hz]
  simp only [View.ld_unit_zero (S := S512x2048) hz, View.ld_unit_zero (S := S2048x2048) hz, View.ld_unit_zero (S := S512x104) hz,
    View.ld_unit_zero (S := S104x2048) hz, View.ld_unit_zero (S := S1x2048) hz, View.ld_unit_zero (S := S2048x104) hz,
    View.ld_unit_zero (S := S1x104) hz]
  funext y
  obtain ⟨p, d, rfl⟩ : ∃ (p : Fin 512) (d : Fin 104), y = ix2 p d := ⟨y 0, y 1, eq_ix2 y⟩
  show joined (k0_pay3 (F := Ideal) (iblk m c 1 t) (iblk m c 2 t) (iblk m c 0 t) (iblk m c 4 t) (iblk m c 3 t) (iblk m c 5 t) (iblk m c 6 t) (iblk m c 7 t)) (ix2 p d)
    = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb (ix2 p d))
  rw [emb_out, out_point]
  rfl

/-! ## The blocks cover the arrays -/

theorem mem_blk_out (t : Fin cfg0.N) (i : S8192x104.Idx) :
    i ∈ ((cfg0.win 8).blk t).view.set ↔ ∀ a : Fin 2, win0_8.index t a * S512x104.size a ≤ (i a).val
      ∧ (i a).val < win0_8.index t a * S512x104.size a + S512x104.size a := by
  show i ∈ ((View.whole main_v11_0).slice (win0_8.rect t)).set ↔ _
  rw [View.set_slice_whole, Rect.mem_set_unit]
  exact Iff.rfl

theorem mem_blk_hid (t : Fin cfg0.N) (i : S8192x2048.Idx) :
    i ∈ ((cfg0.win 9).blk t).view.set ↔ ∀ a : Fin 2, win0_9.index t a * S512x2048.size a ≤ (i a).val
      ∧ (i a).val < win0_9.index t a * S512x2048.size a + S512x2048.size a := by
  show i ∈ ((View.whole main_v11_1).slice (win0_9.rect t)).set ↔ _
  rw [View.set_slice_whole, Rect.mem_set_unit]
  exact Iff.rfl

/-- The point whose block holds a given row. -/
def pointOf (r : Fin 8192) : Fin cfg0.N := ⟨r.val / 512, by rw [show cfg0.N = 16 from N_0]; have := r.isLt; omega⟩

theorem cover_out (i : S8192x104.Idx) : ∃ t : Fin cfg0.N, (cfg0.win 8).flush t = true ∧ i ∈ ((cfg0.win 8).blk t).view.set := by
  have hi0 : (i 0).val < 8192 := (i 0).isLt
  have hi1 : (i 1).val < 104 := (i 1).isLt
  refine ⟨pointOf (i 0), flush0_8 _, ?_⟩
  rw [mem_blk_out]
  obtain ⟨-, -, -, -, -, -, -, -, -, -, -, -, -, -, -, -, e0, e1, -⟩ := idx_facts (pointOf (i 0))
  have hp : (pointOf (i 0)).val = (i 0).val / 512 := rfl
  intro a
  match a with
  | ⟨0, _⟩ =>
    show win0_8.index (pointOf (i 0)) (0 : Fin 2) * 512 ≤ (i 0).val ∧ (i 0).val < win0_8.index (pointOf (i 0)) (0 : Fin 2) * 512 + 512
    omega
  | ⟨1, _⟩ =>
    show win0_8.index (pointOf (i 0)) (1 : Fin 2) * 104 ≤ (i 1).val ∧ (i 1).val < win0_8.index (pointOf (i 0)) (1 : Fin 2) * 104 + 104
    omega

theorem cover_hid (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  refine ⟨pointOf (i 0), flush0_9 _, ?_⟩
  rw [mem_blk_hid]
  obtain ⟨-, -, -, -, -, -, -, -, -, -, -, -, -, -, -, -, -, -, e0, e1⟩ := idx_facts (pointOf (i 0))
  have hp : (pointOf (i 0)).val = (i 0).val / 512 := rfl
  intro a
  match a with
  | ⟨0, _⟩ =>
    show win0_9.index (pointOf (i 0)) (0 : Fin 2) * 512 ≤ (i 0).val ∧ (i 0).val < win0_9.index (pointOf (i 0)) (0 : Fin 2) * 512 + 512
    omega
  | ⟨1, _⟩ =>
    show win0_9.index (pointOf (i 0)) (1 : Fin 2) * 2048 ≤ (i 1).val ∧ (i 1).val < win0_9.index (pointOf (i 0)) (1 : Fin 2) * 2048 + 2048
    omega

/-! ## The arrays after the run, and the run -/

theorem final_out : (dats m 0 c).arrAt 8 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_out m c t) cover_out

theorem final_hid : (dats m 0 c).arrAt 9 cfg0.N = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 9 _ (fun t _ => flushed_hid m c t) cover_hid

/-- The kernel's run: it ends with the segmented log-softmax in its first result and the hidden state in its second,
    each the specification's function of the arguments, and the arguments as they were. -/
theorem run : θ_run defs (onTc (τ := τ) (main (F := Ideal))) ⟨m, fun _ => 0, ρ⟩ fun r => ∀ c : Dev nD,
      r.2.mem ((c : Thread nD τ).loc main_v11_0) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v11_1) = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_out m c), (h c).2.1.trans (final_hid m c), (h c).2.2⟩)
    (run_blocks m ρ)

end Cert.KernelIdeal.RnnValue

end
-- ==== Proof.LibConcatCongr.lean ====
/-
  A concatenation of ten pieces is determined by its pieces.

  `concatenate t a xs h` takes, besides the list `xs` of pieces (each a shape with an array of that shape), the fact `h`
  that the pieces' shapes fit together into `t` along axis `a`. That fact speaks of the list, so a rewriting pass cannot
  replace a piece by an equal one on its own: the fact would have to move with it. But `h` only mentions the pieces'
  SHAPES, and replacing each array by an equal array of the same shape leaves those untouched; so two concatenations
  of ten pieces with the same shapes, the same `h`, and piecewise equal arrays are equal. With this, an equation
  between two ten-piece concatenations is split into its ten pieces, each proved where it stands alone.
-/
import Idealize.ShloMosaic.PureOps.ShapeOps

namespace Idealize.ShloMosaic

variable {α : Type}

/-- Ten pieces, equal one by one, concatenate to equal arrays. -/
theorem concatenate_congr10 (t : Shape) (a : Fin t.rank) {s0 s1 s2 s3 s4 s5 s6 s7 s8 s9 : Shape}
    {x0 y0 : s0.Idx → α} {x1 y1 : s1.Idx → α} {x2 y2 : s2.Idx → α} {x3 y3 : s3.Idx → α} {x4 y4 : s4.Idx → α} {x5 y5 : s5.Idx → α} {x6 y6 : s6.Idx → α} {x7 y7 : s7.Idx → α} {x8 y8 : s8.Idx → α} {x9 y9 : s9.Idx → α}
    (h : Shape.Concatenates ([s0, s1, s2, s3, s4, s5, s6, s7, s8, s9] : List Shape) t a)
    (e0 : x0 = y0) (e1 : x1 = y1) (e2 : x2 = y2) (e3 : x3 = y3) (e4 : x4 = y4) (e5 : x5 = y5) (e6 : x6 = y6) (e7 : x7 = y7) (e8 : x8 = y8) (e9 : x9 = y9) :
    concatenate t a [⟨s0, x0⟩, ⟨s1, x1⟩, ⟨s2, x2⟩, ⟨s3, x3⟩, ⟨s4, x4⟩, ⟨s5, x5⟩, ⟨s6, x6⟩, ⟨s7, x7⟩, ⟨s8, x8⟩, ⟨s9, x9⟩] h
      = concatenate t a [⟨s0, y0⟩, ⟨s1, y1⟩, ⟨s2, y2⟩, ⟨s3, y3⟩, ⟨s4, y4⟩, ⟨s5, y5⟩, ⟨s6, y6⟩, ⟨s7, y7⟩, ⟨s8, y8⟩, ⟨s9, y9⟩] h := by
  subst e0 e1 e2 e3 e4 e5 e6 e7 e8 e9
  rfl

end Idealize.ShloMosaic
-- ==== Proof.RefValue.lean ====
/-
  The reference's two results, as the two functions of the arguments.

  The reference computes on the whole batch at once. Its hidden state is the quotient `1 / (1 + exp(−x))` of the same
  four-term sum `x` — which is the logistic function by definition —, with its two products read as sums over the
  contracted axis of the transposed weights; its prediction is the third product plus its bias; and each of its ten
  log-softmax calls cuts a run of columns, takes the row maximum (a reduction started at minus infinity, then once
  more the larger of that and minus infinity, which changes nothing), subtracts it, sums the exponentials from zero,
  and subtracts the logarithm: `segLse` of the prediction row. The ten results are laid side by side. Each step is read
  at an entry through the generated one-operation lemmas; what is written here is the identification of their index
  functions with coordinates, the reading of the row maximum as a fold, and the reading of the concatenation.
-/
import proofs.«167510_j88983132438935_1_alg».proof.Proof.RefReadP
import proofs.«167510_j88983132438935_1_alg».proof.Proof.KernelSeg
import Idealize.ShloMosaic.Lib.Pipeline.Value

noncomputable section

namespace Cert.ReferenceIdeal.RnnRef

open Cert.ReferenceIdeal Cert.ReferenceIdeal.Gen Cert.ReferenceIdeal.ReadP Idealize.ShloMosaic Idealize.ShloMosaic.ValueIdx
open Cert.RnnSpec Cert.RnnSeg

variable (x0 : Mat 8192 104) (x1 : Mat 8192 2048) (x2 : Mat 2048 2048) (x3 : Vct 2048) (x4 : Mat 2048 104) (x5 : Vct 2048)
  (x6 : Mat 104 2048) (x7 : Vct 104)

/-- A column counted inside a run that ends within the 104 columns is one of the 104 columns. -/
theorem col_lt {a n : ℕ} (h : a + n ≤ 104) (q : Fin n) : a + q.val < 104 := by have := q.isLt; omega

/-! ## The hidden state and the prediction -/

theorem hid_apply (b : Fin 8192) (h : Fin 2048) :
    val_main_v16 (F := Ideal) x0 x1 x2 x3 x4 x5 (ix2 b h) = hidAt x0 x1 x2 x3 x4 x5 b h := by
  have e1 : ∀ k : Fin 2048, lidx_main_v1 (ix2 b h) k = ix2 b k := fun k =>
    funext fun ax => Fin.ext (by match ax with | ⟨0, _⟩ => rfl | ⟨1, _⟩ => rfl)
  have e2 : ∀ k : Fin 2048, idx_main_v0 (ridx_main_v1 (ix2 b h) k) = ix2 h k := fun k =>
    funext fun ax => Fin.ext (by match ax with | ⟨0, _⟩ => rfl | ⟨1, _⟩ => rfl)
  have e3 : idx_main_v2 (idx_main_v3 (ix2 b h)) = ix1 h := funext fun ax => Fin.ext (by match ax with | ⟨0, _⟩ => rfl)
  have e4 : ∀ d : Fin 104, lidx_main_v6 (ix2 b h) d = ix2 b d := fun d =>
    funext fun ax => Fin.ext (by match ax with | ⟨0, _⟩ => rfl | ⟨1, _⟩ => rfl)
  have e5 : ∀ d : Fin 104, idx_main_v5 (ridx_main_v6 (ix2 b h) d) = ix2 h d := fun d =>
    funext fun ax => Fin.ext (by match ax with | ⟨0, _⟩ => rfl | ⟨1, _⟩ => rfl)
  have e6 : idx_main_v8 (idx_main_v9 (ix2 b h)) = ix1 h := funext fun ax => Fin.ext (by match ax with | ⟨0, _⟩ => rfl)
  rw [val_main_v16_apply, val_main_v15_apply, val_main_cst_0_apply, val_main_v14_apply, val_main_v13_apply, val_main_cst_apply,
    val_main_v12_apply, val_main_v11_apply, val_main_v10_apply, val_main_v9_apply, val_main_v8_apply, val_main_v7_apply,
    val_main_v6_apply, val_main_v4_apply, val_main_v3_apply, val_main_v2_apply, val_main_v1_apply]
  simp only [val_main_v5_apply, val_main_v0_apply, e1, e2, e3, e4, e5, e6]
  unfold hidAt Ideal.logistic
  simp only [Ideal.hostDivf_def, Ideal.addf_def, Ideal.hostUnary_exp_def, Ideal.hostNegf_def, Ideal.negf_def, Ideal.ofBits_def,
    ofBits_one]

theorem pred_apply (b : Fin 8192) (d : Fin 104) :
    val_main_v21 (F := Ideal) x0 x1 x2 x3 x4 x5 x6 x7 (ix2 b d) = predAt (fun k => hidAt x0 x1 x2 x3 x4 x5 b k) x6 x7 d := by
  have e1 : ∀ k : Fin 2048, lidx_main_v18 (ix2 b d) k = ix2 b k := fun k =>
    funext fun ax => Fin.ext (by match ax with | ⟨0, _⟩ => rfl | ⟨1, _⟩ => rfl)
  have e2 : ∀ k : Fin 2048, idx_main_v17 (ridx_main_v18 (ix2 b d) k) = ix2 d k := fun k =>
    funext fun ax => Fin.ext (by match ax with | ⟨0, _⟩ => rfl | ⟨1, _⟩ => rfl)
  have e3 : idx_main_v19 (idx_main_v20 (ix2 b d)) = ix1 d := funext fun ax => Fin.ext (by match ax with | ⟨0, _⟩ => rfl)
  rw [val_main_v21_apply, val_main_v20_apply, val_main_v19_apply, val_main_v18_apply]
  simp only [val_main_v17_apply, e1, e2, e3, hid_apply]
  unfold predAt
  rfl

/-! ## The ten log-softmax calls -/

/-! ### The first run: columns 0 to 12 -/

theorem cut0 (b : Fin 8192) (k : Fin 13) :
    val_main_v22 (F := Ideal) x0 x1 x2 x3 x4 x5 x6 x7 (ix2 b k) = (rowN fun c => val_main_v21 (F := Ideal) x0 x1 x2 x3 x4 x5 x6 x7 (ix2 b c)) (0 + k.val) := by
  rw [val_main_v22_apply, rowN_of_lt _ _ (col_lt (show 0 + 13 ≤ 104 by decide) k)]
  exact congrArg _ (funext fun ax => Fin.ext (by
    match ax with
    | ⟨0, _⟩ => rfl
    | ⟨1, _⟩ => show _ = 0 + k.val; first | rfl | (show k.val = 0 + k.val; omega)))

theorem max0 (b : Fin 8192) : val_main_call0_v2 (F := Ideal) x0 x1 x2 x3 x4 x5 x6 x7 (ix1 b) = segMax (rowN fun c => val_main_v21 (F := Ideal) x0 x1 x2 x3 x4 x5 x6 x7 (ix2 b c)) 0 13 := by
  have hr : S8192x13.Reduces [1] S8192 := by decide
  have h0 : val_main_call0_v0 (F := Ideal) x0 x1 x2 x3 x4 x5 x6 x7 (ix1 b) = segMax (rowN fun c => val_main_v21 (F := Ideal) x0 x1 x2 x3 x4 x5 x6 x7 (ix2 b c)) 0 13 := by
    unfold val_main_call0_v0
    refine (Host.reduce_eq_fold_single FloatOps.maximumf _ _ reducesTo_S8192x13_S8192_d1 hr h_S_ (ix1 b)).trans ?_
    show (Finset.univ : Finset (Fin 13)).fold max (Ideal.ofBits .f32 0xFF800000#32)
        (fun k : Fin 13 => val_main_v22 (F := Ideal) x0 x1 x2 x3 x4 x5 x6 x7 (hr.lift (ix1 b) k))
      = (Finset.univ : Finset (Fin 13)).fold max ⊥ fun k => (rowN fun c => val_main_v21 (F := Ideal) x0 x1 x2 x3 x4 x5 x6 x7 (ix2 b c)) (0 + k.val)
    rw [ofBits_neg_inf]
    refine congrArg (fun f => Finset.fold max ⊥ f Finset.univ) (funext fun k => ?_)
    rw [lift_eq hr b k]
    exact cut0 x0 x1 x2 x3 x4 x5 x6 x7 b k
  rw [val_main_call0_v2_apply, val_main_call0_v1_apply, val_main_call0_cst_0_apply, h0]
  show max (Ideal.ofBits .f32 0xFF800000#32) _ = _
  rw [ofBits_neg_inf]
  exact max_eq_right bot_le

theorem shifted0 (b : Fin 8192) (k : Fin 13) :
    val_main_call0_v5 (F := Ideal) x0 x1 x2 x3 x4 x5 x6 x7 (ix2 b k) = (rowN fun c => val_main_v21 (F := Ideal) x0 x1 x2 x3 x4 x5 x6 x7 (ix2 b c)) (0 + k.val) - segMax (rowN fun c => val_main_v21 (F := Ideal) x0 x1 x2 x3 x4 x5 x6 x7 (ix2 b c)) 0 13 := by
  have e : idx_main_call0_v3 (idx_main_call0_v4 (ix2 b k)) = ix1 b :=
    funext fun ax => Fin.ext (by match ax with | ⟨0, _⟩ => rfl)
  rw [val_main_call0_v5_apply, val_main_call0_v4_apply, val_main_call0_v3_apply, e, max0, cut0]
  rfl

theorem run0 (b : Fin 8192) (q : Fin 13) :
    val_main_v23 (F := Ideal) x0 x1 x2 x3 x4 x5 x6 x7 (ix2 b q) = segLse (rowN fun c => val_main_v21 (F := Ideal) x0 x1 x2 x3 x4 x5 x6 x7 (ix2 b c)) 0 13 (0 + q.val) := by
  have e8 : idx_main_call0_v8 (idx_main_call0_v10 (ix2 b q)) = ix1 b :=
    funext fun ax => Fin.ext (by match ax with | ⟨0, _⟩ => rfl)
  have e7 : ∀ k : Fin 13, idx_main_call0_v7 (ix1 b) k = ix2 b k := fun k =>
    funext fun ax => Fin.ext (by match ax with | ⟨0, _⟩ => rfl | ⟨1, _⟩ => rfl)
  rw [val_main_v23_apply, val_main_call0_v10_apply, val_main_call0_v9_apply, val_main_call0_v8_apply, e8, val_main_call0_v7_apply, shifted0]
  simp only [e7, val_main_call0_v6_apply, shifted0, val_main_call0_cst_1_apply]
  unfold segLse
  simp only [Ideal.subf_def, Ideal.hostUnary_log_def, Ideal.hostUnary_exp_def, Ideal.ofBits_def, Ideal.ofBits_zero_f32, zero_add]

/-! ### The second run: columns 13 to 25 -/

theorem cut1 (b : Fin 8192) (k : Fin 13) :
    val_main_v24 (F := Ideal) x0 x1 x2 x3 x4 x5 x6 x7 (ix2 b k) = (rowN fun c => val_main_v21 (F := Ideal) x0 x1 x2 x3 x4 x5 x6 x7 (ix2 b c)) (13 + k.val) := by
  rw [val_main_v24_apply, rowN_of_lt _ _ (col_lt (show 13 + 13 ≤ 104 by decide) k)]
  exact congrArg _ (funext fun ax => Fin.ext (by
    match ax with
    | ⟨0, _⟩ => rfl
    | ⟨1, _⟩ => show _ = 13 + k.val; first | rfl | (show k.val = 0 + k.val; omega)))

theorem max1 (b : Fin 8192) : val_main_call1_v2 (F := Ideal) x0 x1 x2 x3 x4 x5 x6 x7 (ix1 b) = segMax (rowN fun c => val_main_v21 (F := Ideal) x0 x1 x2 x3 x4 x5 x6 x7 (ix2 b c)) 13 13 := by
  have hr : S8192x13.Reduces [1] S8192 := by decide
  have h0 : val_main_call1_v0 (F := Ideal) x0 x1 x2 x3 x4 x5 x6 x7 (ix1 b) = segMax (rowN fun c => val_main_v21 (F := Ideal) x0 x1 x2 x3 x4 x5 x6 x7 (ix2 b c)) 13 13 := by
    unfold val_main_call1_v0
    refine (Host.reduce_eq_fold_single FloatOps.maximumf _ _ reducesTo_S8192x13_S8192_d1 hr h_S_ (ix1 b)).trans ?_
    show (Finset.univ : Finset (Fin 13)).fold max (Ideal.ofBits .f32 0xFF800000#32)
        (fun k : Fin 13 => val_main_v24 (F := Ideal) x0 x1 x2 x3 x4 x5 x6 x7 (hr.lift (ix1 b) k))
      = (Finset.univ : Finset (Fin 13)).fold max ⊥ fun k => (rowN fun c => val_main_v21 (F := Ideal) x0 x1 x2 x3 x4 x5 x6 x7 (ix2 b c)) (13 + k.val)
    rw [ofBits_neg_inf]
    refine congrArg (fun f => Finset.fold max ⊥ f Finset.univ) (funext fun k => ?_)
    rw [lift_eq hr b k]
    exact cut1 x0 x1 x2 x3 x4 x5 x6 x7 b k
  rw [val_main_call1_v2_apply, val_main_call1_v1_apply, val_main_call1_cst_0_apply, h0]
  show max (Ideal.ofBits .f32 0xFF800000#32) _ = _
  rw [ofBits_neg_inf]
  exact max_eq_right bot_le

theorem shifted1 (b : Fin 8192) (k : Fin 13) :
    val_main_call1_v5 (F := Ideal) x0 x1 x2 x3 x4 x5 x6 x7 (ix2 b k) = (rowN fun c => val_main_v21 (F := Ideal) x0 x1 x2 x3 x4 x5 x6 x7 (ix2 b c)) (13 + k.val) - segMax (rowN fun c => val_main_v21 (F := Ideal) x0 x1 x2 x3 x4 x5 x6 x7 (ix2 b c)) 13 13 := by
  have e : idx_main_call1_v3 (idx_main_call1_v4 (ix2 b k)) = ix1 b :=
    funext fun ax => Fin.ext (by match ax with | ⟨0, _⟩ => rfl)
  rw [val_main_call1_v5_apply, val_main_call1_v4_apply, val_main_call1_v3_apply, e, max1, cut1]
  rfl

theorem run1 (b : Fin 8192) (q : Fin 13) :
    val_main_v25 (F := Ideal) x0 x1 x2 x3 x4 x5 x6 x7 (ix2 b q) = segLse (rowN fun c => val_main_v21 (F := Ideal) x0 x1 x2 x3 x4 x5 x6 x7 (ix2 b c)) 13 13 (13 + q.val) := by
  have e8 : idx_main_call1_v8 (idx_main_call1_v10 (ix2 b q)) = ix1 b :=
    funext fun ax => Fin.ext (by match ax with | ⟨0, _⟩ => rfl)
  have e7 : ∀ k : Fin 13, idx_main_call1_v7 (ix1 b) k = ix2 b k := fun k =>
    funext fun ax => Fin.ext (by match ax with | ⟨0, _⟩ => rfl | ⟨1, _⟩ => rfl)
  rw [val_main_v25_apply, val_main_call1_v10_apply, val_main_call1_v9_apply, val_main_call1_v8_apply, e8, val_main_call1_v7_apply, shifted1]
  simp only [e7, val_main_call1_v6_apply, shifted1, val_main_call1_cst_1_apply]
  unfold segLse
  simp only [Ideal.subf_def, Ideal.hostUnary_log_def, Ideal.hostUnary_exp_def, Ideal.ofBits_def, Ideal.ofBits_zero_f32, zero_add]

/-! ### The third run: columns 26 to 38 -/

theorem cut2 (b : Fin 8192) (k : Fin 13) :
    val_main_v26 (F := Ideal) x0 x1 x2 x3 x4 x5 x6 x7 (ix2 b k) = (rowN fun c => val_main_v21 (F := Ideal) x0 x1 x2 x3 x4 x5 x6 x7 (ix2 b c)) (26 + k.val) := by
  rw [val_main_v26_apply, rowN_of_lt _ _ (col_lt (show 26 + 13 ≤ 104 by decide) k)]
  exact congrArg _ (funext fun ax => Fin.ext (by
    match ax with
    | ⟨0, _⟩ => rfl
    | ⟨1, _⟩ => show _ = 26 + k.val; first | rfl | (show k.val = 0 + k.val; omega)))

theorem max2 (b : Fin 8192) : val_main_call2_v2 (F := Ideal) x0 x1 x2 x3 x4 x5 x6 x7 (ix1 b) = segMax (rowN fun c => val_main_v21 (F := Ideal) x0 x1 x2 x3 x4 x5 x6 x7 (ix2 b c)) 26 13 := by
  have hr : S8192x13.Reduces [1] S8192 := by decide
  have h0 : val_main_call2_v0 (F := Ideal) x0 x1 x2 x3 x4 x5 x6 x7 (ix1 b) = segMax (rowN fun c => val_main_v21 (F := Ideal) x0 x1 x2 x3 x4 x5 x6 x7 (ix2 b c)) 26 13 := by
    unfold val_main_call2_v0
    refine (Host.reduce_eq_fold_single FloatOps.maximumf _ _ reducesTo_S8192x13_S8192_d1 hr h_S_ (ix1 b)).trans ?_
    show (Finset.univ : Finset (Fin 13)).fold max (Ideal.ofBits .f32 0xFF800000#32)
        (fun k : Fin 13 => val_main_v26 (F := Ideal) x0 x1 x2 x3 x4 x5 x6 x7 (hr.lift (ix1 b) k))
      = (Finset.univ : Finset (Fin 13)).fold max ⊥ fun k => (rowN fun c => val_main_v21 (F := Ideal) x0 x1 x2 x3 x4 x5 x6 x7 (ix2 b c)) (26 + k.val)
    rw [ofBits_neg_inf]
    refine congrArg (fun f => Finset.fold max ⊥ f Finset.univ) (funext fun k => ?_)
    rw [lift_eq hr b k]
    exact cut2 x0 x1 x2 x3 x4 x5 x6 x7 b k
  rw [val_main_call2_v2_apply, val_main_call2_v1_apply, val_main_call2_cst_0_apply, h0]
  show max (Ideal.ofBits .f32 0xFF800000#32) _ = _
  rw [ofBits_neg_inf]
  exact max_eq_right bot_le

theorem shifted2 (b : Fin 8192) (k : Fin 13) :
    val_main_call2_v5 (F := Ideal) x0 x1 x2 x3 x4 x5 x6 x7 (ix2 b k) = (rowN fun c => val_main_v21 (F := Ideal) x0 x1 x2 x3 x4 x5 x6 x7 (ix2 b c)) (26 + k.val) - segMax (rowN fun c => val_main_v21 (F := Ideal) x0 x1 x2 x3 x4 x5 x6 x7 (ix2 b c)) 26 13 := by
  have e : idx_main_call2_v3 (idx_main_call2_v4 (ix2 b k)) = ix1 b :=
    funext fun ax => Fin.ext (by match ax with | ⟨0, _⟩ => rfl)
  rw [val_main_call2_v5_apply, val_main_call2_v4_apply, val_main_call2_v3_apply, e, max2, cut2]
  rfl

theorem run2 (b : Fin 8192) (q : Fin 13) :
    val_main_v27 (F := Ideal) x0 x1 x2 x3 x4 x5 x6 x7 (ix2 b q) = segLse (rowN fun c => val_main_v21 (F := Ideal) x0 x1 x2 x3 x4 x5 x6 x7 (ix2 b c)) 26 13 (26 + q.val) := by
  have e8 : idx_main_call2_v8 (idx_main_call2_v10 (ix2 b q)) = ix1 b :=
    funext fun ax => Fin.ext (by match ax with | ⟨0, _⟩ => rfl)
  have e7 : ∀ k : Fin 13, idx_main_call2_v7 (ix1 b) k = ix2 b k := fun k =>
    funext fun ax => Fin.ext (by match ax with | ⟨0, _⟩ => rfl | ⟨1, _⟩ => rfl)
  rw [val_main_v27_apply, val_main_call2_v10_apply, val_main_call2_v9_apply, val_main_call2_v8_apply, e8, val_main_call2_v7_apply, shifted2]
  simp only [e7, val_main_call2_v6_apply, shifted2, val_main_call2_cst_1_apply]
  unfold segLse
  simp only [Ideal.subf_def, Ideal.hostUnary_log_def, Ideal.hostUnary_exp_def, Ideal.ofBits_def, Ideal.ofBits_zero_f32, zero_add]

/-! ### The fourth run: columns 39 to 47 -/

theorem cut3 (b : Fin 8192) (k : Fin 9) :
    val_main_v28 (F := Ideal) x0 x1 x2 x3 x4 x5 x6 x7 (ix2 b k) = (rowN fun c => val_main_v21 (F := Ideal) x0 x1 x2 x3 x4 x5 x6 x7 (ix2 b c)) (39 + k.val) := by
  rw [val_main_v28_apply, rowN_of_lt _ _ (col_lt (show 39 + 9 ≤ 104 by decide) k)]
  exact congrArg _ (funext fun ax => Fin.ext (by
    match ax with
    | ⟨0, _⟩ => rfl
    | ⟨1, _⟩ => show _ = 39 + k.val; first | rfl | (show k.val = 0 + k.val; omega)))

theorem max3 (b : Fin 8192) : val_main_call3_v2 (F := Ideal) x0 x1 x2 x3 x4 x5 x6 x7 (ix1 b) = segMax (rowN fun c => val_main_v21 (F := Ideal) x0 x1 x2 x3 x4 x5 x6 x7 (ix2 b c)) 39 9 := by
  have hr : S8192x9.Reduces [1] S8192 := by decide
  have h0 : val_main_call3_v0 (F := Ideal) x0 x1 x2 x3 x4 x5 x6 x7 (ix1 b) = segMax (rowN fun c => val_main_v21 (F := Ideal) x0 x1 x2 x3 x4 x5 x6 x7 (ix2 b c)) 39 9 := by
    unfold val_main_call3_v0
    refine (Host.reduce_eq_fold_single FloatOps.maximumf _ _ reducesTo_S8192x9_S8192_d1 hr h_S_ (ix1 b)).trans ?_
    show (Finset.univ : Finset (Fin 9)).fold max (Ideal.ofBits .f32 0xFF800000#32)
        (fun k : Fin 9 => val_main_v28 (F := Ideal) x0 x1 x2 x3 x4 x5 x6 x7 (hr.lift (ix1 b) k))
      = (Finset.univ : Finset (Fin 9)).fold max ⊥ fun k => (rowN fun c => val_main_v21 (F := Ideal) x0 x1 x2 x3 x4 x5 x6 x7 (ix2 b c)) (39 + k.val)
    rw [ofBits_neg_inf]
    refine congrArg (fun f => Finset.fold max ⊥ f Finset.univ) (funext fun k => ?_)
    rw [lift_eq hr b k]
    exact cut3 x0 x1 x2 x3 x4 x5 x6 x7 b k
  rw [val_main_call3_v2_apply, val_main_call3_v1_apply, val_main_call3_cst_0_apply, h0]
  show max (Ideal.ofBits .f32 0xFF800000#32) _ = _
  rw [ofBits_neg_inf]
  exact max_eq_right bot_le

theorem shifted3 (b : Fin 8192) (k : Fin 9) :
    val_main_call3_v5 (F := Ideal) x0 x1 x2 x3 x4 x5 x6 x7 (ix2 b k) = (rowN fun c => val_main_v21 (F := Ideal) x0 x1 x2 x3 x4 x5 x6 x7 (ix2 b c)) (39 + k.val) - segMax (rowN fun c => val_main_v21 (F := Ideal) x0 x1 x2 x3 x4 x5 x6 x7 (ix2 b c)) 39 9 := by
  have e : idx_main_call3_v3 (idx_main_call3_v4 (ix2 b k)) = ix1 b :=
    funext fun ax => Fin.ext (by match ax with | ⟨0, _⟩ => rfl)
  rw [val_main_call3_v5_apply, val_main_call3_v4_apply, val_main_call3_v3_apply, e, max3, cut3]
  rfl

theorem run3 (b : Fin 8192) (q : Fin 9) :
    val_main_v29 (F := Ideal) x0 x1 x2 x3 x4 x5 x6 x7 (ix2 b q) = segLse (rowN fun c => val_main_v21 (F := Ideal) x0 x1 x2 x3 x4 x5 x6 x7 (ix2 b c)) 39 9 (39 + q.val) := by
  have e8 : idx_main_call3_v8 (idx_main_call3_v10 (ix2 b q)) = ix1 b :=
    funext fun ax => Fin.ext (by match ax with | ⟨0, _⟩ => rfl)
  have e7 : ∀ k : Fin 9, idx_main_call3_v7 (ix1 b) k = ix2 b k := fun k =>
    funext fun ax => Fin.ext (by match ax with | ⟨0, _⟩ => rfl | ⟨1, _⟩ => rfl)
  rw [val_main_v29_apply, val_main_call3_v10_apply, val_main_call3_v9_apply, val_main_call3_v8_apply, e8, val_main_call3_v7_apply, shifted3]
  simp only [e7, val_main_call3_v6_apply, shifted3, val_main_call3_cst_1_apply]
  unfold segLse
  simp only [Ideal.subf_def, Ideal.hostUnary_log_def, Ideal.hostUnary_exp_def, Ideal.ofBits_def, Ideal.ofBits_zero_f32, zero_add]

/-! ### The fifth run: columns 48 to 51 -/

theorem cut4 (b : Fin 8192) (k : Fin 4) :
    val_main_v30 (F := Ideal) x0 x1 x2 x3 x4 x5 x6 x7 (ix2 b k) = (rowN fun c => val_main_v21 (F := Ideal) x0 x1 x2 x3 x4 x5 x6 x7 (ix2 b c)) (48 + k.val) := by
  rw [val_main_v30_apply, rowN_of_lt _ _ (col_lt (show 48 + 4 ≤ 104 by decide) k)]
  exact congrArg _ (funext fun ax => Fin.ext (by
    match ax with
    | ⟨0, _⟩ => rfl
    | ⟨1, _⟩ => show _ = 48 + k.val; first | rfl | (show k.val = 0 + k.val; omega)))

theorem max4 (b : Fin 8192) : val_main_call4_v2 (F := Ideal) x0 x1 x2 x3 x4 x5 x6 x7 (ix1 b) = segMax (rowN fun c => val_main_v21 (F := Ideal) x0 x1 x2 x3 x4 x5 x6 x7 (ix2 b c)) 48 4 := by
  have hr : S8192x4.Reduces [1] S8192 := by decide
  have h0 : val_main_call4_v0 (F := Ideal) x0 x1 x2 x3 x4 x5 x6 x7 (ix1 b) = segMax (rowN fun c => val_main_v21 (F := Ideal) x0 x1 x2 x3 x4 x5 x6 x7 (ix2 b c)) 48 4 := by
    unfold val_main_call4_v0
    refine (Host.reduce_eq_fold_single FloatOps.maximumf _ _ reducesTo_S8192x4_S8192_d1 hr h_S_ (ix1 b)).trans ?_
    show (Finset.univ : Finset (Fin 4)).fold max (Ideal.ofBits .f32 0xFF800000#32)
        (fun k : Fin 4 => val_main_v30 (F := Ideal) x0 x1 x2 x3 x4 x5 x6 x7 (hr.lift (ix1 b) k))
      = (Finset.univ : Finset (Fin 4)).fold max ⊥ fun k => (rowN fun c => val_main_v21 (F := Ideal) x0 x1 x2 x3 x4 x5 x6 x7 (ix2 b c)) (48 + k.val)
    rw [ofBits_neg_inf]
    refine congrArg (fun f => Finset.fold max ⊥ f Finset.univ) (funext fun k => ?_)
    rw [lift_eq hr b k]
    exact cut4 x0 x1 x2 x3 x4 x5 x6 x7 b k
  rw [val_main_call4_v2_apply, val_main_call4_v1_apply, val_main_call4_cst_0_apply, h0]
  show max (Ideal.ofBits .f32 0xFF800000#32) _ = _
  rw [ofBits_neg_inf]
  exact max_eq_right bot_le

theorem shifted4 (b : Fin 8192) (k : Fin 4) :
    val_main_call4_v5 (F := Ideal) x0 x1 x2 x3 x4 x5 x6 x7 (ix2 b k) = (rowN fun c => val_main_v21 (F := Ideal) x0 x1 x2 x3 x4 x5 x6 x7 (ix2 b c)) (48 + k.val) - segMax (rowN fun c => val_main_v21 (F := Ideal) x0 x1 x2 x3 x4 x5 x6 x7 (ix2 b c)) 48 4 := by
  have e : idx_main_call4_v3 (idx_main_call4_v4 (ix2 b k)) = ix1 b :=
    funext fun ax => Fin.ext (by match ax with | ⟨0, _⟩ => rfl)
  rw [val_main_call4_v5_apply, val_main_call4_v4_apply, val_main_call4_v3_apply, e, max4, cut4]
  rfl

theorem run4 (b : Fin 8192) (q : Fin 4) :
    val_main_v31 (F := Ideal) x0 x1 x2 x3 x4 x5 x6 x7 (ix2 b q) = segLse (rowN fun c => val_main_v21 (F := Ideal) x0 x1 x2 x3 x4 x5 x6 x7 (ix2 b c)) 48 4 (48 + q.val) := by
  have e8 : idx_main_call4_v8 (idx_main_call4_v10 (ix2 b q)) = ix1 b :=
    funext fun ax => Fin.ext (by match ax with | ⟨0, _⟩ => rfl)
  have e7 : ∀ k : Fin 4, idx_main_call4_v7 (ix1 b) k = ix2 b k := fun k =>
    funext fun ax => Fin.ext (by match ax with | ⟨0, _⟩ => rfl | ⟨1, _⟩ => rfl)
  rw [val_main_v31_apply, val_main_call4_v10_apply, val_main_call4_v9_apply, val_main_call4_v8_apply, e8, val_main_call4_v7_apply, shifted4]
  simp only [e7, val_main_call4_v6_apply, shifted4, val_main_call4_cst_1_apply]
  unfold segLse
  simp only [Ideal.subf_def, Ideal.hostUnary_log_def, Ideal.hostUnary_exp_def, Ideal.ofBits_def, Ideal.ofBits_zero_f32, zero_add]

/-! ### The sixth run: columns 52 to 64 -/

theorem cut5 (b : Fin 8192) (k : Fin 13) :
    val_main_v32 (F := Ideal) x0 x1 x2 x3 x4 x5 x6 x7 (ix2 b k) = (rowN fun c => val_main_v21 (F := Ideal) x0 x1 x2 x3 x4 x5 x6 x7 (ix2 b c)) (52 + k.val) := by
  rw [val_main_v32_apply, rowN_of_lt _ _ (col_lt (show 52 + 13 ≤ 104 by decide) k)]
  exact congrArg _ (funext fun ax => Fin.ext (by
    match ax with
    | ⟨0, _⟩ => rfl
    | ⟨1, _⟩ => show _ = 52 + k.val; first | rfl | (show k.val = 0 + k.val; omega)))

theorem max5 (b : Fin 8192) : val_main_call5_v2 (F := Ideal) x0 x1 x2 x3 x4 x5 x6 x7 (ix1 b) = segMax (rowN fun c => val_main_v21 (F := Ideal) x0 x1 x2 x3 x4 x5 x6 x7 (ix2 b c)) 52 13 := by
  have hr : S8192x13.Reduces [1] S8192 := by decide
  have h0 : val_main_call5_v0 (F := Ideal) x0 x1 x2 x3 x4 x5 x6 x7 (ix1 b) = segMax (rowN fun c => val_main_v21 (F := Ideal) x0 x1 x2 x3 x4 x5 x6 x7 (ix2 b c)) 52 13 := by
    unfold val_main_call5_v0
    refine (Host.reduce_eq_fold_single FloatOps.maximumf _ _ reducesTo_S8192x13_S8192_d1 hr h_S_ (ix1 b)).trans ?_
    show (Finset.univ : Finset (Fin 13)).fold max (Ideal.ofBits .f32 0xFF800000#32)
        (fun k : Fin 13 => val_main_v32 (F := Ideal) x0 x1 x2 x3 x4 x5 x6 x7 (hr.lift (ix1 b) k))
      = (Finset.univ : Finset (Fin 13)).fold max ⊥ fun k => (rowN fun c => val_main_v21 (F := Ideal) x0 x1 x2 x3 x4 x5 x6 x7 (ix2 b c)) (52 + k.val)
    rw [ofBits_neg_inf]
    refine congrArg (fun f => Finset.fold max ⊥ f Finset.univ) (funext fun k => ?_)
    rw [lift_eq hr b k]
    exact cut5 x0 x1 x2 x3 x4 x5 x6 x7 b k
  rw [val_main_call5_v2_apply, val_main_call5_v1_apply, val_main_call5_cst_0_apply, h0]
  show max (Ideal.ofBits .f32 0xFF800000#32) _ = _
  rw [ofBits_neg_inf]
  exact max_eq_right bot_le

theorem shifted5 (b : Fin 8192) (k : Fin 13) :
    val_main_call5_v5 (F := Ideal) x0 x1 x2 x3 x4 x5 x6 x7 (ix2 b k) = (rowN fun c => val_main_v21 (F := Ideal) x0 x1 x2 x3 x4 x5 x6 x7 (ix2 b c)) (52 + k.val) - segMax (rowN fun c => val_main_v21 (F := Ideal) x0 x1 x2 x3 x4 x5 x6 x7 (ix2 b c)) 52 13 := by
  have e : idx_main_call5_v3 (idx_main_call5_v4 (ix2 b k)) = ix1 b :=
    funext fun ax => Fin.ext (by match ax with | ⟨0, _⟩ => rfl)
  rw [val_main_call5_v5_apply, val_main_call5_v4_apply, val_main_call5_v3_apply, e, max5, cut5]
  rfl

theorem run5 (b : Fin 8192) (q : Fin 13) :
    val_main_v33 (F := Ideal) x0 x1 x2 x3 x4 x5 x6 x7 (ix2 b q) = segLse (rowN fun c => val_main_v21 (F := Ideal) x0 x1 x2 x3 x4 x5 x6 x7 (ix2 b c)) 52 13 (52 + q.val) := by
  have e8 : idx_main_call5_v8 (idx_main_call5_v10 (ix2 b q)) = ix1 b :=
    funext fun ax => Fin.ext (by match ax with | ⟨0, _⟩ => rfl)
  have e7 : ∀ k : Fin 13, idx_main_call5_v7 (ix1 b) k = ix2 b k := fun k =>
    funext fun ax => Fin.ext (by match ax with | ⟨0, _⟩ => rfl | ⟨1, _⟩ => rfl)
  rw [val_main_v33_apply, val_main_call5_v10_apply, val_main_call5_v9_apply, val_main_call5_v8_apply, e8, val_main_call5_v7_apply, shifted5]
  simp only [e7, val_main_call5_v6_apply, shifted5, val_main_call5_cst_1_apply]
  unfold segLse
  simp only [Ideal.subf_def, Ideal.hostUnary_log_def, Ideal.hostUnary_exp_def, Ideal.ofBits_def, Ideal.ofBits_zero_f32, zero_add]

/-! ### The seventh run: columns 65 to 77 -/

theorem cut6 (b : Fin 8192) (k : Fin 13) :
    val_main_v34 (F := Ideal) x0 x1 x2 x3 x4 x5 x6 x7 (ix2 b k) = (rowN fun c => val_main_v21 (F := Ideal) x0 x1 x2 x3 x4 x5 x6 x7 (ix2 b c)) (65 + k.val) := by
  rw [val_main_v34_apply, rowN_of_lt _ _ (col_lt (show 65 + 13 ≤ 104 by decide) k)]
  exact congrArg _ (funext fun ax => Fin.ext (by
    match ax with
    | ⟨0, _⟩ => rfl
    | ⟨1, _⟩ => show _ = 65 + k.val; first | rfl | (show k.val = 0 + k.val; omega)))

theorem max6 (b : Fin 8192) : val_main_call6_v2 (F := Ideal) x0 x1 x2 x3 x4 x5 x6 x7 (ix1 b) = segMax (rowN fun c => val_main_v21 (F := Ideal) x0 x1 x2 x3 x4 x5 x6 x7 (ix2 b c)) 65 13 := by
  have hr : S8192x13.Reduces [1] S8192 := by decide
  have h0 : val_main_call6_v0 (F := Ideal) x0 x1 x2 x3 x4 x5 x6 x7 (ix1 b) = segMax (rowN fun c => val_main_v21 (F := Ideal) x0 x1 x2 x3 x4 x5 x6 x7 (ix2 b c)) 65 13 := by
    unfold val_main_call6_v0
    refine (Host.reduce_eq_fold_single FloatOps.maximumf _ _ reducesTo_S8192x13_S8192_d1 hr h_S_ (ix1 b)).trans ?_
    show (Finset.univ : Finset (Fin 13)).fold max (Ideal.ofBits .f32 0xFF800000#32)
        (fun k : Fin 13 => val_main_v34 (F := Ideal) x0 x1 x2 x3 x4 x5 x6 x7 (hr.lift (ix1 b) k))
      = (Finset.univ : Finset (Fin 13)).fold max ⊥ fun k => (rowN fun c => val_main_v21 (F := Ideal) x0 x1 x2 x3 x4 x5 x6 x7 (ix2 b c)) (65 + k.val)
    rw [ofBits_neg_inf]
    refine congrArg (fun f => Finset.fold max ⊥ f Finset.univ) (funext fun k => ?_)
    rw [lift_eq hr b k]
    exact cut6 x0 x1 x2 x3 x4 x5 x6 x7 b k
  rw [val_main_call6_v2_apply, val_main_call6_v1_apply, val_main_call6_cst_0_apply, h0]
  show max (Ideal.ofBits .f32 0xFF800000#32) _ = _
  rw [ofBits_neg_inf]
  exact max_eq_right bot_le

theorem shifted6 (b : Fin 8192) (k : Fin 13) :
    val_main_call6_v5 (F := Ideal) x0 x1 x2 x3 x4 x5 x6 x7 (ix2 b k) = (rowN fun c => val_main_v21 (F := Ideal) x0 x1 x2 x3 x4 x5 x6 x7 (ix2 b c)) (65 + k.val) - segMax (rowN fun c => val_main_v21 (F := Ideal) x0 x1 x2 x3 x4 x5 x6 x7 (ix2 b c)) 65 13 := by
  have e : idx_main_call6_v3 (idx_main_call6_v4 (ix2 b k)) = ix1 b :=
    funext fun ax => Fin.ext (by match ax with | ⟨0, _⟩ => rfl)
  rw [val_main_call6_v5_apply, val_main_call6_v4_apply, val_main_call6_v3_apply, e, max6, cut6]
  rfl

theorem run6 (b : Fin 8192) (q : Fin 13) :
    val_main_v35 (F := Ideal) x0 x1 x2 x3 x4 x5 x6 x7 (ix2 b q) = segLse (rowN fun c => val_main_v21 (F := Ideal) x0 x1 x2 x3 x4 x5 x6 x7 (ix2 b c)) 65 13 (65 + q.val) := by
  have e8 : idx_main_call6_v8 (idx_main_call6_v10 (ix2 b q)) = ix1 b :=
    funext fun ax => Fin.ext (by match ax with | ⟨0, _⟩ => rfl)
  have e7 : ∀ k : Fin 13, idx_main_call6_v7 (ix1 b) k = ix2 b k := fun k =>
    funext fun ax => Fin.ext (by match ax with | ⟨0, _⟩ => rfl | ⟨1, _⟩ => rfl)
  rw [val_main_v35_apply, val_main_call6_v10_apply, val_main_call6_v9_apply, val_main_call6_v8_apply, e8, val_main_call6_v7_apply, shifted6]
  simp only [e7, val_main_call6_v6_apply, shifted6, val_main_call6_cst_1_apply]
  unfold segLse
  simp only [Ideal.subf_def, Ideal.hostUnary_log_def, Ideal.hostUnary_exp_def, Ideal.ofBits_def, Ideal.ofBits_zero_f32, zero_add]

/-! ### The eighth run: columns 78 to 90 -/

theorem cut7 (b : Fin 8192) (k : Fin 13) :
    val_main_v36 (F := Ideal) x0 x1 x2 x3 x4 x5 x6 x7 (ix2 b k) = (rowN fun c => val_main_v21 (F := Ideal) x0 x1 x2 x3 x4 x5 x6 x7 (ix2 b c)) (78 + k.val) := by
  rw [val_main_v36_apply, rowN_of_lt _ _ (col_lt (show 78 + 13 ≤ 104 by decide) k)]
  exact congrArg _ (funext fun ax => Fin.ext (by
    match ax with
    | ⟨0, _⟩ => rfl
    | ⟨1, _⟩ => show _ = 78 + k.val; first | rfl | (show k.val = 0 + k.val; omega)))

theorem max7 (b : Fin 8192) : val_main_call7_v2 (F := Ideal) x0 x1 x2 x3 x4 x5 x6 x7 (ix1 b) = segMax (rowN fun c => val_main_v21 (F := Ideal) x0 x1 x2 x3 x4 x5 x6 x7 (ix2 b c)) 78 13 := by
  have hr : S8192x13.Reduces [1] S8192 := by decide
  have h0 : val_main_call7_v0 (F := Ideal) x0 x1 x2 x3 x4 x5 x6 x7 (ix1 b) = segMax (rowN fun c => val_main_v21 (F := Ideal) x0 x1 x2 x3 x4 x5 x6 x7 (ix2 b c)) 78 13 := by
    unfold val_main_call7_v0
    refine (Host.reduce_eq_fold_single FloatOps.maximumf _ _ reducesTo_S8192x13_S8192_d1 hr h_S_ (ix1 b)).trans ?_
    show (Finset.univ : Finset (Fin 13)).fold max (Ideal.ofBits .f32 0xFF800000#32)
        (fun k : Fin 13 => val_main_v36 (F := Ideal) x0 x1 x2 x3 x4 x5 x6 x7 (hr.lift (ix1 b) k))
      = (Finset.univ : Finset (Fin 13)).fold max ⊥ fun k => (rowN fun c => val_main_v21 (F := Ideal) x0 x1 x2 x3 x4 x5 x6 x7 (ix2 b c)) (78 + k.val)
    rw [ofBits_neg_inf]
    refine congrArg (fun f => Finset.fold max ⊥ f Finset.univ) (funext fun k => ?_)
    rw [lift_eq hr b k]
    exact cut7 x0 x1 x2 x3 x4 x5 x6 x7 b k
  rw [val_main_call7_v2_apply, val_main_call7_v1_apply, val_main_call7_cst_0_apply, h0]
  show max (Ideal.ofBits .f32 0xFF800000#32) _ = _
  rw [ofBits_neg_inf]
  exact max_eq_right bot_le

theorem shifted7 (b : Fin 8192) (k : Fin 13) :
    val_main_call7_v5 (F := Ideal) x0 x1 x2 x3 x4 x5 x6 x7 (ix2 b k) = (rowN fun c => val_main_v21 (F := Ideal) x0 x1 x2 x3 x4 x5 x6 x7 (ix2 b c)) (78 + k.val) - segMax (rowN fun c => val_main_v21 (F := Ideal) x0 x1 x2 x3 x4 x5 x6 x7 (ix2 b c)) 78 13 := by
  have e : idx_main_call7_v3 (idx_main_call7_v4 (ix2 b k)) = ix1 b :=
    funext fun ax => Fin.ext (by match ax with | ⟨0, _⟩ => rfl)
  rw [val_main_call7_v5_apply, val_main_call7_v4_apply, val_main_call7_v3_apply, e, max7, cut7]
  rfl

theorem run7 (b : Fin 8192) (q : Fin 13) :
    val_main_v37 (F := Ideal) x0 x1 x2 x3 x4 x5 x6 x7 (ix2 b q) = segLse (rowN fun c => val_main_v21 (F := Ideal) x0 x1 x2 x3 x4 x5 x6 x7 (ix2 b c)) 78 13 (78 + q.val) := by
  have e8 : idx_main_call7_v8 (idx_main_call7_v10 (ix2 b q)) = ix1 b :=
    funext fun ax => Fin.ext (by match ax with | ⟨0, _⟩ => rfl)
  have e7 : ∀ k : Fin 13, idx_main_call7_v7 (ix1 b) k = ix2 b k := fun k =>
    funext fun ax => Fin.ext (by match ax with | ⟨0, _⟩ => rfl | ⟨1, _⟩ => rfl)
  rw [val_main_v37_apply, val_main_call7_v10_apply, val_main_call7_v9_apply, val_main_call7_v8_apply, e8, val_main_call7_v7_apply, shifted7]
  simp only [e7, val_main_call7_v6_apply, shifted7, val_main_call7_cst_1_apply]
  unfold segLse
  simp only [Ideal.subf_def, Ideal.hostUnary_log_def, Ideal.hostUnary_exp_def, Ideal.ofBits_def, Ideal.ofBits_zero_f32, zero_add]

/-! ### The ninth run: columns 91 to 99 -/

theorem cut8 (b : Fin 8192) (k : Fin 9) :
    val_main_v38 (F := Ideal) x0 x1 x2 x3 x4 x5 x6 x7 (ix2 b k) = (rowN fun c => val_main_v21 (F := Ideal) x0 x1 x2 x3 x4 x5 x6 x7 (ix2 b c)) (91 + k.val) := by
  rw [val_main_v38_apply, rowN_of_lt _ _ (col_lt (show 91 + 9 ≤ 104 by decide) k)]
  exact congrArg _ (funext fun ax => Fin.ext (by
    match ax with
    | ⟨0, _⟩ => rfl
    | ⟨1, _⟩ => show _ = 91 + k.val; first | rfl | (show k.val = 0 + k.val; omega)))

theorem max8 (b : Fin 8192) : val_main_call8_v2 (F := Ideal) x0 x1 x2 x3 x4 x5 x6 x7 (ix1 b) = segMax (rowN fun c => val_main_v21 (F := Ideal) x0 x1 x2 x3 x4 x5 x6 x7 (ix2 b c)) 91 9 := by
  have hr : S8192x9.Reduces [1] S8192 := by decide
  have h0 : val_main_call8_v0 (F := Ideal) x0 x1 x2 x3 x4 x5 x6 x7 (ix1 b) = segMax (rowN fun c => val_main_v21 (F := Ideal) x0 x1 x2 x3 x4 x5 x6 x7 (ix2 b c)) 91 9 := by
    unfold val_main_call8_v0
    refine (Host.reduce_eq_fold_single FloatOps.maximumf _ _ reducesTo_S8192x9_S8192_d1 hr h_S_ (ix1 b)).trans ?_
    show (Finset.univ : Finset (Fin 9)).fold max (Ideal.ofBits .f32 0xFF800000#32)
        (fun k : Fin 9 => val_main_v38 (F := Ideal) x0 x1 x2 x3 x4 x5 x6 x7 (hr.lift (ix1 b) k))
      = (Finset.univ : Finset (Fin 9)).fold max ⊥ fun k => (rowN fun c => val_main_v21 (F := Ideal) x0 x1 x2 x3 x4 x5 x6 x7 (ix2 b c)) (91 + k.val)
    rw [ofBits_neg_inf]
    refine congrArg (fun f => Finset.fold max ⊥ f Finset.univ) (funext fun k => ?_)
    rw [lift_eq hr b k]
    exact cut8 x0 x1 x2 x3 x4 x5 x6 x7 b k
  rw [val_main_call8_v2_apply, val_main_call8_v1_apply, val_main_call8_cst_0_apply, h0]
  show max (Ideal.ofBits .f32 0xFF800000#32) _ = _
  rw [ofBits_neg_inf]
  exact max_eq_right bot_le

theorem shifted8 (b : Fin 8192) (k : Fin 9) :
    val_main_call8_v5 (F := Ideal) x0 x1 x2 x3 x4 x5 x6 x7 (ix2 b k) = (rowN fun c => val_main_v21 (F := Ideal) x0 x1 x2 x3 x4 x5 x6 x7 (ix2 b c)) (91 + k.val) - segMax (rowN fun c => val_main_v21 (F := Ideal) x0 x1 x2 x3 x4 x5 x6 x7 (ix2 b c)) 91 9 := by
  have e : idx_main_call8_v3 (idx_main_call8_v4 (ix2 b k)) = ix1 b :=
    funext fun ax => Fin.ext (by match ax with | ⟨0, _⟩ => rfl)
  rw [val_main_call8_v5_apply, val_main_call8_v4_apply, val_main_call8_v3_apply, e, max8, cut8]
  rfl

theorem run8 (b : Fin 8192) (q : Fin 9) :
    val_main_v39 (F := Ideal) x0 x1 x2 x3 x4 x5 x6 x7 (ix2 b q) = segLse (rowN fun c => val_main_v21 (F := Ideal) x0 x1 x2 x3 x4 x5 x6 x7 (ix2 b c)) 91 9 (91 + q.val) := by
  have e8 : idx_main_call8_v8 (idx_main_call8_v10 (ix2 b q)) = ix1 b :=
    funext fun ax => Fin.ext (by match ax with | ⟨0, _⟩ => rfl)
  have e7 : ∀ k : Fin 9, idx_main_call8_v7 (ix1 b) k = ix2 b k := fun k =>
    funext fun ax => Fin.ext (by match ax with | ⟨0, _⟩ => rfl | ⟨1, _⟩ => rfl)
  rw [val_main_v39_apply, val_main_call8_v10_apply, val_main_call8_v9_apply, val_main_call8_v8_apply, e8, val_main_call8_v7_apply, shifted8]
  simp only [e7, val_main_call8_v6_apply, shifted8, val_main_call8_cst_1_apply]
  unfold segLse
  simp only [Ideal.subf_def, Ideal.hostUnary_log_def, Ideal.hostUnary_exp_def, Ideal.ofBits_def, Ideal.ofBits_zero_f32, zero_add]

/-! ### The tenth run: columns 100 to 103 -/

theorem cut9 (b : Fin 8192) (k : Fin 4) :
    val_main_v40 (F := Ideal) x0 x1 x2 x3 x4 x5 x6 x7 (ix2 b k) = (rowN fun c => val_main_v21 (F := Ideal) x0 x1 x2 x3 x4 x5 x6 x7 (ix2 b c)) (100 + k.val) := by
  rw [val_main_v40_apply, rowN_of_lt _ _ (col_lt (show 100 + 4 ≤ 104 by decide) k)]
  exact congrArg _ (funext fun ax => Fin.ext (by
    match ax with
    | ⟨0, _⟩ => rfl
    | ⟨1, _⟩ => show _ = 100 + k.val; first | rfl | (show k.val = 0 + k.val; omega)))

theorem max9 (b : Fin 8192) : val_main_call9_v2 (F := Ideal) x0 x1 x2 x3 x4 x5 x6 x7 (ix1 b) = segMax (rowN fun c => val_main_v21 (F := Ideal) x0 x1 x2 x3 x4 x5 x6 x7 (ix2 b c)) 100 4 := by
  have hr : S8192x4.Reduces [1] S8192 := by decide
  have h0 : val_main_call9_v0 (F := Ideal) x0 x1 x2 x3 x4 x5 x6 x7 (ix1 b) = segMax (rowN fun c => val_main_v21 (F := Ideal) x0 x1 x2 x3 x4 x5 x6 x7 (ix2 b c)) 100 4 := by
    unfold val_main_call9_v0
    refine (Host.reduce_eq_fold_single FloatOps.maximumf _ _ reducesTo_S8192x4_S8192_d1 hr h_S_ (ix1 b)).trans ?_
    show (Finset.univ : Finset (Fin 4)).fold max (Ideal.ofBits .f32 0xFF800000#32)
        (fun k : Fin 4 => val_main_v40 (F := Ideal) x0 x1 x2 x3 x4 x5 x6 x7 (hr.lift (ix1 b) k))
      = (Finset.univ : Finset (Fin 4)).fold max ⊥ fun k => (rowN fun c => val_main_v21 (F := Ideal) x0 x1 x2 x3 x4 x5 x6 x7 (ix2 b c)) (100 + k.val)
    rw [ofBits_neg_inf]
    refine congrArg (fun f => Finset.fold max ⊥ f Finset.univ) (funext fun k => ?_)
    rw [lift_eq hr b k]
    exact cut9 x0 x1 x2 x3 x4 x5 x6 x7 b k
  rw [val_main_call9_v2_apply, val_main_call9_v1_apply, val_main_call9_cst_0_apply, h0]
  show max (Ideal.ofBits .f32 0xFF800000#32) _ = _
  rw [ofBits_neg_inf]
  exact max_eq_right bot_le

theorem shifted9 (b : Fin 8192) (k : Fin 4) :
    val_main_call9_v5 (F := Ideal) x0 x1 x2 x3 x4 x5 x6 x7 (ix2 b k) = (rowN fun c => val_main_v21 (F := Ideal) x0 x1 x2 x3 x4 x5 x6 x7 (ix2 b c)) (100 + k.val) - segMax (rowN fun c => val_main_v21 (F := Ideal) x0 x1 x2 x3 x4 x5 x6 x7 (ix2 b c)) 100 4 := by
  have e : idx_main_call9_v3 (idx_main_call9_v4 (ix2 b k)) = ix1 b :=
    funext fun ax => Fin.ext (by match ax with | ⟨0, _⟩ => rfl)
  rw [val_main_call9_v5_apply, val_main_call9_v4_apply, val_main_call9_v3_apply, e, max9, cut9]
  rfl

theorem run9 (b : Fin 8192) (q : Fin 4) :
    val_main_v41 (F := Ideal) x0 x1 x2 x3 x4 x5 x6 x7 (ix2 b q) = segLse (rowN fun c => val_main_v21 (F := Ideal) x0 x1 x2 x3 x4 x5 x6 x7 (ix2 b c)) 100 4 (100 + q.val) := by
  have e8 : idx_main_call9_v8 (idx_main_call9_v10 (ix2 b q)) = ix1 b :=
    funext fun ax => Fin.ext (by match ax with | ⟨0, _⟩ => rfl)
  have e7 : ∀ k : Fin 4, idx_main_call9_v7 (ix1 b) k = ix2 b k := fun k =>
    funext fun ax => Fin.ext (by match ax with | ⟨0, _⟩ => rfl | ⟨1, _⟩ => rfl)
  rw [val_main_v41_apply, val_main_call9_v10_apply, val_main_call9_v9_apply, val_main_call9_v8_apply, e8, val_main_call9_v7_apply, shifted9]
  simp only [e7, val_main_call9_v6_apply, shifted9, val_main_call9_cst_1_apply]
  unfold segLse
  simp only [Ideal.subf_def, Ideal.hostUnary_log_def, Ideal.hostUnary_exp_def, Ideal.ofBits_def, Ideal.ofBits_zero_f32, zero_add]

/-! ## The ten results side by side -/

/-- The ten calls' results, as the list the concatenation takes. -/
def outPieces : List ((s : Shape) × (s.Idx → EReal)) :=
  [ ⟨S8192x13, val_main_v23 (F := Ideal) x0 x1 x2 x3 x4 x5 x6 x7⟩,
    ⟨S8192x13, val_main_v25 (F := Ideal) x0 x1 x2 x3 x4 x5 x6 x7⟩,
    ⟨S8192x13, val_main_v27 (F := Ideal) x0 x1 x2 x3 x4 x5 x6 x7⟩,
    ⟨S8192x9, val_main_v29 (F := Ideal) x0 x1 x2 x3 x4 x5 x6 x7⟩,
    ⟨S8192x4, val_main_v31 (F := Ideal) x0 x1 x2 x3 x4 x5 x6 x7⟩,
    ⟨S8192x13, val_main_v33 (F := Ideal) x0 x1 x2 x3 x4 x5 x6 x7⟩,
    ⟨S8192x13, val_main_v35 (F := Ideal) x0 x1 x2 x3 x4 x5 x6 x7⟩,
    ⟨S8192x13, val_main_v37 (F := Ideal) x0 x1 x2 x3 x4 x5 x6 x7⟩,
    ⟨S8192x9, val_main_v39 (F := Ideal) x0 x1 x2 x3 x4 x5 x6 x7⟩,
    ⟨S8192x4, val_main_v41 (F := Ideal) x0 x1 x2 x3 x4 x5 x6 x7⟩ ]

/-- The concatenation read at a column inside piece `k`, which starts at column `a` and has `n` columns. -/
theorem out_piece (b : Fin 8192) (k : ℕ) (hk : k < (outPieces x0 x1 x2 x3 x4 x5 x6 x7).length) (n : ℕ) (x : Mat 8192 n)
    (hx : (outPieces x0 x1 x2 x3 x4 x5 x6 x7)[k] = ⟨⟨2, ![8192, n]⟩, x⟩) (a : ℕ)
    (hpre : ((((outPieces x0 x1 x2 x3 x4 x5 x6 x7).take k).map (·.1)).map fun s : Shape =>
      if h : s.rank = S8192x104.rank then s.size ((1 : Fin S8192x104.rank).cast h.symm) else 0).sum = a)
    (q : Fin n) (hq : a + q.val < 104) :
    val_main_v42 (F := Ideal) x0 x1 x2 x3 x4 x5 x6 x7 (ix2 b (⟨a + q.val, hq⟩ : Fin 104)) = x (ix2 b q) := by
  show concatenate S8192x104 1 (outPieces x0 x1 x2 x3 x4 x5 x6 x7) concatenates_S8192x13_S8192x13_S8192x13_S8192x9_S8192x4_S8192x13_S8192x13_S8192x13_S8192x9_S8192x4_S8192x104_d1 (ix2 b (⟨a + q.val, hq⟩ : Fin 104)) = _
  exact concatenate_apply_piece (1 : Fin S8192x104.rank) (outPieces x0 x1 x2 x3 x4 x5 x6 x7) concatenates_S8192x13_S8192x13_S8192x13_S8192x9_S8192x4_S8192x13_S8192x13_S8192x13_S8192x9_S8192x4_S8192x104_d1
    (ix2 b (⟨a + q.val, hq⟩ : Fin 104)) k hk ⟨2, ![8192, n]⟩ x hx rfl a hpre (ix2 b q)
    (fun ax hax => match ax with
      | ⟨0, _⟩ => rfl
      | ⟨1, _⟩ => absurd rfl hax)
    rfl

/-- The reference's first result at an entry. -/
theorem out_apply (b : Fin 8192) (c : Fin 104) :
    val_main_v42 (F := Ideal) x0 x1 x2 x3 x4 x5 x6 x7 (ix2 b c) = lsm (rowN fun c => val_main_v21 (F := Ideal) x0 x1 x2 x3 x4 x5 x6 x7 (ix2 b c)) c.val := by
  have hc := c.isLt
  rcases (by omega : c.val < 13 ∨ (13 ≤ c.val ∧ c.val < 26) ∨ (26 ≤ c.val ∧ c.val < 39) ∨ (39 ≤ c.val ∧ c.val < 48)
      ∨ (48 ≤ c.val ∧ c.val < 52) ∨ (52 ≤ c.val ∧ c.val < 65) ∨ (65 ≤ c.val ∧ c.val < 78) ∨ (78 ≤ c.val ∧ c.val < 91)
      ∨ (91 ≤ c.val ∧ c.val < 100) ∨ (100 ≤ c.val ∧ c.val < 104)) with h | h | h | h | h | h | h | h | h | h
  · obtain ⟨q, rfl⟩ : ∃ q : Fin 13, c = ⟨0 + q.val, col_lt (by decide) q⟩ :=
      ⟨⟨c.val - 0, by omega⟩, Fin.ext (by show c.val = 0 + (c.val - 0); omega)⟩
    rw [lsm_seg0 _ _ q.isLt]
    exact (out_piece x0 x1 x2 x3 x4 x5 x6 x7 b 0 (show 0 < 10 by decide) 13 _ rfl 0 rfl q _).trans (run0 x0 x1 x2 x3 x4 x5 x6 x7 b q)
  · obtain ⟨q, rfl⟩ : ∃ q : Fin 13, c = ⟨13 + q.val, col_lt (by decide) q⟩ :=
      ⟨⟨c.val - 13, by omega⟩, Fin.ext (by show c.val = 13 + (c.val - 13); omega)⟩
    rw [lsm_seg1 _ _ q.isLt]
    exact (out_piece x0 x1 x2 x3 x4 x5 x6 x7 b 1 (show 1 < 10 by decide) 13 _ rfl 13 rfl q _).trans (run1 x0 x1 x2 x3 x4 x5 x6 x7 b q)
  · obtain ⟨q, rfl⟩ : ∃ q : Fin 13, c = ⟨26 + q.val, col_lt (by decide) q⟩ :=
      ⟨⟨c.val - 26, by omega⟩, Fin.ext (by show c.val = 26 + (c.val - 26); omega)⟩
    rw [lsm_seg2 _ _ q.isLt]
    exact (out_piece x0 x1 x2 x3 x4 x5 x6 x7 b 2 (show 2 < 10 by decide) 13 _ rfl 26 rfl q _).trans (run2 x0 x1 x2 x3 x4 x5 x6 x7 b q)
  · obtain ⟨q, rfl⟩ : ∃ q : Fin 9, c = ⟨39 + q.val, col_lt (by decide) q⟩ :=
      ⟨⟨c.val - 39, by omega⟩, Fin.ext (by show c.val = 39 + (c.val - 39); omega)⟩
    rw [lsm_seg3 _ _ q.isLt]
    exact (out_piece x0 x1 x2 x3 x4 x5 x6 x7 b 3 (show 3 < 10 by decide) 9 _ rfl 39 rfl q _).trans (run3 x0 x1 x2 x3 x4 x5 x6 x7 b q)
  · obtain ⟨q, rfl⟩ : ∃ q : Fin 4, c = ⟨48 + q.val, col_lt (by decide) q⟩ :=
      ⟨⟨c.val - 48, by omega⟩, Fin.ext (by show c.val = 48 + (c.val - 48); omega)⟩
    rw [lsm_seg4 _ _ q.isLt]
    exact (out_piece x0 x1 x2 x3 x4 x5 x6 x7 b 4 (show 4 < 10 by decide) 4 _ rfl 48 rfl q _).trans (run4 x0 x1 x2 x3 x4 x5 x6 x7 b q)
  · obtain ⟨q, rfl⟩ : ∃ q : Fin 13, c = ⟨52 + q.val, col_lt (by decide) q⟩ :=
      ⟨⟨c.val - 52, by omega⟩, Fin.ext (by show c.val = 52 + (c.val - 52); omega)⟩
    rw [lsm_seg5 _ _ q.isLt]
    exact (out_piece x0 x1 x2 x3 x4 x5 x6 x7 b 5 (show 5 < 10 by decide) 13 _ rfl 52 rfl q _).trans (run5 x0 x1 x2 x3 x4 x5 x6 x7 b q)
  · obtain ⟨q, rfl⟩ : ∃ q : Fin 13, c = ⟨65 + q.val, col_lt (by decide) q⟩ :=
      ⟨⟨c.val - 65, by omega⟩, Fin.ext (by show c.val = 65 + (c.val - 65); omega)⟩
    rw [lsm_seg6 _ _ q.isLt]
    exact (out_piece x0 x1 x2 x3 x4 x5 x6 x7 b 6 (show 6 < 10 by decide) 13 _ rfl 65 rfl q _).trans (run6 x0 x1 x2 x3 x4 x5 x6 x7 b q)
  · obtain ⟨q, rfl⟩ : ∃ q : Fin 13, c = ⟨78 + q.val, col_lt (by decide) q⟩ :=
      ⟨⟨c.val - 78, by omega⟩, Fin.ext (by show c.val = 78 + (c.val - 78); omega)⟩
    rw [lsm_seg7 _ _ q.isLt]
    exact (out_piece x0 x1 x2 x3 x4 x5 x6 x7 b 7 (show 7 < 10 by decide) 13 _ rfl 78 rfl q _).trans (run7 x0 x1 x2 x3 x4 x5 x6 x7 b q)
  · obtain ⟨q, rfl⟩ : ∃ q : Fin 9, c = ⟨91 + q.val, col_lt (by decide) q⟩ :=
      ⟨⟨c.val - 91, by omega⟩, Fin.ext (by show c.val = 91 + (c.val - 91); omega)⟩
    rw [lsm_seg8 _ _ q.isLt]
    exact (out_piece x0 x1 x2 x3 x4 x5 x6 x7 b 8 (show 8 < 10 by decide) 9 _ rfl 91 rfl q _).trans (run8 x0 x1 x2 x3 x4 x5 x6 x7 b q)
  · obtain ⟨q, rfl⟩ : ∃ q : Fin 4, c = ⟨100 + q.val, col_lt (by decide) q⟩ :=
      ⟨⟨c.val - 100, by omega⟩, Fin.ext (by show c.val = 100 + (c.val - 100); omega)⟩
    rw [lsm_seg9 _ _ q.isLt]
    exact (out_piece x0 x1 x2 x3 x4 x5 x6 x7 b 9 (show 9 < 10 by decide) 4 _ rfl 100 rfl q _).trans (run9 x0 x1 x2 x3 x4 x5 x6 x7 b q)

/-! ## The two results as whole arrays -/

theorem hid_eq : val_main_v16 (F := Ideal) x0 x1 x2 x3 x4 x5 = hidArr x0 x1 x2 x3 x4 x5 := by
  funext i
  obtain ⟨b, h, rfl⟩ : ∃ (b : Fin 8192) (h : Fin 2048), i = ix2 b h := ⟨i 0, i 1, eq_ix2 i⟩
  exact hid_apply x0 x1 x2 x3 x4 x5 b h

theorem out_eq : val_main_v42 (F := Ideal) x0 x1 x2 x3 x4 x5 x6 x7 = outArr x0 x1 x2 x3 x4 x5 x6 x7 := by
  funext i
  obtain ⟨b, c, rfl⟩ : ∃ (b : Fin 8192) (c : Fin 104), i = ix2 b c := ⟨i 0, i 1, eq_ix2 i⟩
  rw [out_apply]
  exact congrArg (fun f => lsm (rowN f) c.val) (funext fun d => pred_apply x0 x1 x2 x3 x4 x5 x6 x7 b d)

end Cert.ReferenceIdeal.RnnRef

end
-- ==== Proof.lean ====
/-
  A tiny recurrent cell with a segmented log-softmax head: the kernel against its reference, on the extended reals.

  Both programs compute, from a batch of 8192 rows,
    h    = logistic(hidden · Uᵀ + u + line · Wᵀ + w)          (the new hidden state, 8192 × 2048),
    pred = h · Vᵀ + v                                          (8192 × 104),
    out  = the logarithm of a softmax taken separately over ten runs of columns of `pred`
  and return `out` and `h`. The kernel does so 512 rows at a time, with its weights transposed beforehand and its
  operands narrowed to sixteen bits in front of the three products (the identity on extended reals); the reference does
  so on the whole batch, spelling the logistic function as `1 / (1 + exp(−x))` (its definition) and taking each row
  maximum once more against minus infinity (which changes nothing). A product accumulated into zero is the plain sum
  over the contracted axis on both sides, a lane reduction the fold of `max` or the plain sum, and both lay the ten runs
  side by side; so both results are the same two functions of the arguments (`outArr`, `hidArr`), entry by entry. No
  law of arithmetic that could fail at an infinity is used, and the precondition is never opened.

  The pieces: the specification (Spec), one run of columns on a block (KernelSeg), the kernel's arithmetic on a block
  (KernelBody), the kernel's arrays after its run (KernelValue), the reference's results (RefValue); here, the claims.
  The three frames are the programs' runs with the results dropped; the idealization rewrote nothing, so `preserves`
  is trivial.
-/
import proofs.«167510_j88983132438935_1_alg».proof.Defs
import proofs.«167510_j88983132438935_1_alg».proof.Proof.Gen.Kernel
import proofs.«167510_j88983132438935_1_alg».proof.Proof.Gen.Kernel.Skeleton
import proofs.«167510_j88983132438935_1_alg».proof.Proof.Gen.Kernel.Launch
import proofs.«167510_j88983132438935_1_alg».proof.Proof.Gen.Kernel.Points
import proofs.«167510_j88983132438935_1_alg».proof.Proof.Gen.Kernel.Frame
import proofs.«167510_j88983132438935_1_alg».proof.Proof.Gen.KernelIdeal
import proofs.«167510_j88983132438935_1_alg».proof.Proof.Gen.KernelIdeal.Skeleton
import proofs.«167510_j88983132438935_1_alg».proof.Proof.Gen.KernelIdeal.Launch
import proofs.«167510_j88983132438935_1_alg».proof.Proof.Gen.KernelIdeal.Points
import proofs.«167510_j88983132438935_1_alg».proof.Proof.Gen.KernelIdeal.Frame
import proofs.«167510_j88983132438935_1_alg».proof.Proof.Gen.KernelIdeal.Value
import proofs.«167510_j88983132438935_1_alg».proof.Proof.Gen.ReferenceIdeal
import proofs.«167510_j88983132438935_1_alg».proof.Proof.Gen.Pre_finite_inputs
import proofs.«167510_j88983132438935_1_alg».proof.Proof.KernelValue
import proofs.«167510_j88983132438935_1_alg».proof.Proof.RefValue
import Idealize.ShloMosaic.Adequacy
import Idealize.ShloMosaic.Init

noncomputable section

namespace Cert.Proof

open Idealize.ShloMosaic Idealize.SL.Sem Cert.RnnSpec

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- From memories that agree on the eight arguments both programs end with the segmented log-softmax `outArr` and the
    hidden state `hidArr` of those arguments: the kernel by its blocks covering both arrays, the reference by reading its
    operations one at a time. -/
theorem algebraic : Cert.algebraic_KernelIdeal_ReferenceIdeal := by
  intro m ρ m' ρ' _ hagree
  refine ⟨fun c => outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => hidArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.RnnValue.run m ρ, ?_⟩
  refine (θ_run Cert.ReferenceIdeal.defs _ _).mono (fun _ h c => ⟨?_, ?_, (h c).2.2⟩)
    (Cert.ReferenceIdeal.ValueP.run (F := Ideal) m' ρ')
  · refine (h c).1.trans ((Cert.ReferenceIdeal.ReadP.val_main_v42_eq (F := Ideal) m' c).trans
      ((Cert.ReferenceIdeal.RnnRef.out_eq _ _ _ _ _ _ _ _).trans ?_))
    rw [(hagree c).1, (hagree c).2.1, (hagree c).2.2.1, (hagree c).2.2.2.1, (hagree c).2.2.2.2.1, (hagree c).2.2.2.2.2.1, (hagree c).2.2.2.2.2.2.1, (hagree c).2.2.2.2.2.2.2]
  · refine (h c).2.1.trans ((Cert.ReferenceIdeal.ReadP.val_main_v16_eq (F := Ideal) _ _ _ _ _ _).trans
      ((Cert.ReferenceIdeal.RnnRef.hid_eq _ _ _ _ _ _).trans ?_))
    rw [(hagree c).1, (hagree c).2.1, (hagree c).2.2.1, (hagree c).2.2.2.1, (hagree c).2.2.2.2.1, (hagree c).2.2.2.2.2.1]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
